-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_sigma" .f32 0x41200000#32 ((134217728 / 13421773 : ℝ) : EReal)
  ∧ IdealRules.named_const.Statement Cert.KernelIdeal.κ "inv_sigma" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x256x256 : Shape := ⟨4, ![8, 1, 256, 256]⟩
abbrev S256 : Shape := ⟨1, ![256]⟩
abbrev S_ : Shape := ⟨0, ![]⟩

class Facts : Prop where
  bcast_S_S8x1x256x256 : S_.BroadcastsInDim S8x1x256x256 (![] : Fin 0 → Fin S8x1x256x256.rank)
  reducesTo_S8x1x256x256_S_d0_1_2_3 : S8x1x256x256.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S8x1x256x256 .f32) (main_arg1 : FVec F S8x1x256x256 .f32) (main_arg2 : FVec F S256 .f32) : IVec S_ 1 :=
  let main_v0 : FVec F S8x1x256x256 .f32 := Host.absf main_arg0
  let main_cst : FVec F S_ .f32 := constant S_ .f32 0x7F800000#32
  let main_v1 : FVec F S8x1x256x256 .f32 := broadcastInDim S8x1x256x256 ![] bcast_S_S8x1x256x256 main_cst
  let main_v2 : IVec S8x1x256x256 1 := cmpf .olt main_v0 main_v1
  let main_c : IVec S_ 1 := constantI S_ 1 1#1
  let main_v3 : IVec S_ 1 := (fun x v => Host.reduce IntOp.andi x v reducesTo_S8x1x256x256_S_d0_1_2_3 h_S_) main_v2 main_c
  let main_v4 : FVec F S8x1x256x256 .f32 := Host.absf main_arg1
  let main_cst_0 : FVec F S_ .f32 := constant S_ .f32 0x7F800000#32
  let main_v5 : FVec F S8x1x256x256 .f32 := broadcastInDim S8x1x256x256 ![] bcast_S_S8x1x256x256 main_cst_0
  let main_v6 : IVec S8x1x256x256 1 := cmpf .olt main_v4 main_v5
  let main_c_1 : IVec S_ 1 := constantI S_ 1 1#1
  let main_v7 : IVec S_ 1 := (fun x v => Host.reduce IntOp.andi x v reducesTo_S8x1x256x256_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S8x1x256x256 : Shape := ⟨4, ![8, 1, 256, 256]⟩
abbrev S256 : Shape := ⟨1, ![256]⟩
abbrev S8x1x65536 : Shape := ⟨3, ![8, 1, 65536]⟩
abbrev S8x1x256 : Shape := ⟨3, ![8, 1, 256]⟩
abbrev S8x256x256 : Shape := ⟨3, ![8, 256, 256]⟩
abbrev S1x1x4096 : Shape := ⟨3, ![1, 1, 4096]⟩
abbrev S1x1x256 : Shape := ⟨3, ![1, 1, 256]⟩
abbrev S1x256x256 : Shape := ⟨3, ![1, 256, 256]⟩
abbrev S256x256 : Shape := ⟨2, ![256, 256]⟩
abbrev S4096 : Shape := ⟨1, ![4096]⟩
abbrev S4096x1 : Shape := ⟨2, ![4096, 1]⟩
abbrev S1x256 : Shape := ⟨2, ![1, 256]⟩
abbrev S4096x256 : Shape := ⟨2, ![4096, 256]⟩
abbrev S8x256 : Shape := ⟨2, ![8, 256]⟩
abbrev S_ : Shape := ⟨0, ![]⟩
abbrev S8 : Shape := ⟨1, ![8]⟩
abbrev S8x1 : Shape := ⟨2, ![8, 1]⟩
abbrev S8x1x1 : Shape := ⟨3, ![8, 1, 1]⟩
abbrev S8x65536 : Shape := ⟨2, ![8, 65536]⟩

abbrev nBuf : Space → Nat
  | .hbm => 84
  | .vmem => 14
  | .smem => 0
  | _ => 0

abbrev bufTy : (tb : Table) → Fin (tcTables nBuf tb) → BufTy
  | .hbm, ⟨0, _⟩ => ⟨S8x1x256x256, .f32⟩
  | .hbm, ⟨1, _⟩ => ⟨S8x1x256x256, .f32⟩
  | .hbm, ⟨2, _⟩ => ⟨S256, .f32⟩
  | .hbm, ⟨3, _⟩ => ⟨S8x1x65536, .f32⟩
  | .hbm, ⟨4, _⟩ => ⟨S8x1x65536, .f32⟩
  | .hbm, ⟨5, _⟩ => ⟨S8x1x256, .f32⟩
  | .hbm, ⟨6, _⟩ => ⟨S8x1x256, .f32⟩
  | .hbm, ⟨7, _⟩ => ⟨S8x256x256, .f32⟩
  | .hbm, ⟨8, _⟩ => ⟨S8x256, .f32⟩
  | .hbm, ⟨9, _⟩ => ⟨S8x256, .f32⟩
  | .hbm, ⟨10, _⟩ => ⟨S_, .f32⟩
  | .hbm, ⟨11, _⟩ => ⟨S8x256, .f32⟩
  | .hbm, ⟨12, _⟩ => ⟨S8x256, .f32⟩
  | .hbm, ⟨13, _⟩ => ⟨S_, .f32⟩
  | .hbm, ⟨14, _⟩ => ⟨S8, .f32⟩
  | .hbm, ⟨15, _⟩ => ⟨S8x1, .f32⟩
  | .hbm, ⟨16, _⟩ => ⟨S_, .f32⟩
  | .hbm, ⟨17, _⟩ => ⟨S8x1, .f32⟩
  | .hbm, ⟨18, _⟩ => ⟨S8x1, .f32⟩
  | .hbm, ⟨19, _⟩ => ⟨S8x256, .f32⟩
  | .hbm, ⟨20, _⟩ => ⟨S8x256, .f32⟩
  | .hbm, ⟨21, _⟩ => ⟨S_, .f32⟩
  | .hbm, ⟨22, _⟩ => ⟨S8x256, .f32⟩
  | .hbm, ⟨23, _⟩ => ⟨S8x256, .f32⟩
  | .hbm, ⟨24, _⟩ => ⟨S_, .f32⟩
  | .hbm, ⟨25, _⟩ => ⟨S8, .f32⟩
  | .hbm, ⟨26, _⟩ => ⟨S8x1, .f32⟩
  | .hbm, ⟨27, _⟩ => ⟨S_, .f32⟩
  | .hbm, ⟨28, _⟩ => ⟨S8x1, .f32⟩
  | .hbm, ⟨29, _⟩ => ⟨S8x1, .f32⟩
  | .hbm, ⟨30, _⟩ => ⟨S8x256, .f32⟩
  | .hbm, ⟨31, _⟩ => ⟨S8x256, .f32⟩
  | .hbm, ⟨32, _⟩ => ⟨S_, .f32⟩
  | .hbm, ⟨33, _⟩ => ⟨S8, .f32⟩
  | .hbm, ⟨34, _⟩ => ⟨S8x1x1, .f32⟩
  | .hbm, ⟨35, _⟩ => ⟨S_, .f32⟩
  | .hbm, ⟨36, _⟩ => ⟨S8x1x1, .f32⟩
  | .hbm, ⟨37, _⟩ => ⟨S8x1x1, .f32⟩
  | .hbm, ⟨38, _⟩ => ⟨S8x256x256, .f32⟩
  | .hbm, ⟨39, _⟩ => ⟨S8x256x256, .f32⟩
  | .hbm, ⟨40, _⟩ => ⟨S_, .f32⟩
  | .hbm, ⟨41, _⟩ => ⟨S8x256, .f32⟩
  | .hbm, ⟨42, _⟩ => ⟨S8x256, .f32⟩
  | .hbm, ⟨43, _⟩ => ⟨S8x256, .f32⟩
  | .hbm, ⟨44, _⟩ => ⟨S_, .f32⟩
  | .hbm, ⟨45, _⟩ => ⟨S_, .f32⟩
  | .hbm, ⟨46, _⟩ => ⟨S8x256, .f32⟩
  | .hbm, ⟨47, _⟩ => ⟨S8x256, .f32⟩
  | .hbm, ⟨48, _⟩ => ⟨S8x256, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8x256, .f32⟩
  | .hbm, ⟨54, _⟩ => ⟨S8x256, .f32⟩
  | .hbm, ⟨55, _⟩ => ⟨S8x256, .f32⟩
  | .hbm, ⟨56, _⟩ => ⟨S_, .f32⟩
  | .hbm, ⟨57, _⟩ => ⟨S_, .f32⟩
  | .hbm, ⟨58, _⟩ => ⟨S8x256, .f32⟩
  | .hbm, ⟨59, _⟩ => ⟨S8x256, .f32⟩
  | .hbm, ⟨60, _⟩ => ⟨S8x256, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S8x65536, .f32⟩
  | .hbm, ⟨65, _⟩ => ⟨S_, .f32⟩
  | .hbm, ⟨66, _⟩ => ⟨S8x65536, .f32⟩
  | .hbm, ⟨67, _⟩ => ⟨S8x65536, .f32⟩
  | .hbm, ⟨68, _⟩ => ⟨S8x65536, .f32⟩
  | .hbm, ⟨69, _⟩ => ⟨S_, .f32⟩
  | .hbm, ⟨70, _⟩ => ⟨S_, .f32⟩
  | .hbm, ⟨71, _⟩ => ⟨S8x65536, .f32⟩
  | .hbm, ⟨72, _⟩ => ⟨S8x65536, .f32⟩
  | .hbm, ⟨73, _⟩ => ⟨S8x65536, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S8, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S8, .f32⟩
  | .hbm, ⟨83, _⟩ => ⟨S8, .f32⟩
  | .local _ .vmem, ⟨0, _⟩ => ⟨S1x1x4096, .f32⟩
  | .local _ .vmem, ⟨1, _⟩ => ⟨S1x1x4096, .f32⟩
  | .local _ .vmem, ⟨2, _⟩ => ⟨S1x1x4096, .f32⟩
  | .local _ .vmem, ⟨3, _⟩ => ⟨S1x1x4096, .f32⟩
  | .local _ .vmem, ⟨4, _⟩ => ⟨S256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x256x256, .f32⟩
  | .local _ .vmem, ⟨10, _⟩ => ⟨S1x256x256, .f32⟩
  | .local _ .vmem, ⟨11, _⟩ => ⟨S256, .f32⟩
  | .local _ .vmem, ⟨12, _⟩ => ⟨S256, .f32⟩
  | .local _ .vmem, ⟨13, _⟩ => ⟨S256x256, .f32⟩
  | _, _ => ⟨S8x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_23 : BitVec 32 := 0#32
  let v56 : BitVec 1 := Scalar.cmpi .ne v55 c0_i32_23
  v56

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8x1x256x256_S8x1x65536 : S8x1x256x256.ShapeCasts S8x1x65536
  inb_S256_S256_0 : ∀ a, (![0] : Fin 1 → Nat) a + S256.size a ≤ S256.size a
  h_S256 : 0 < S256.numel
  shapeCasts_S256_S256 : S256.ShapeCasts S256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S4096x1 : S4096.ShapeCasts S4096x1
  shapeCasts_S256_S1x256 : S256.ShapeCasts S1x256
  broadcasts_S4096x1_S4096x256 : S4096x1.Broadcasts S4096x256
  broadcasts_S1x256_S4096x256 : S1x256.Broadcasts S4096x256
  reduces_S4096x256_S256 : S4096x256.Reduces [0] S256
  bitsLt_bf16_f32 : FTy.bits .bf16 < FTy.bits .f32
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x1x256 : S256.ShapeCasts S1x1x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  shapeCasts_S8x1x256_S8x256 : S8x1x256.ShapeCasts S8x256
  bcast_S_S8x256 : S_.BroadcastsInDim S8x256 (![] : Fin 0 → Fin S8x256.rank)
  reducesTo_S8x256_S8_d1 : S8x256.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x256_0_1 : S8x1.BroadcastsInDim S8x256 (![0, 1] : Fin 2 → Fin S8x256.rank)
  reducesTo_S8x256x256_S8_d1_2 : S8x256x256.ReducesTo [1, 2] S8
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x256x256_0_1_2 : S8x1x1.BroadcastsInDim S8x256x256 (![0, 1, 2] : Fin 3 → Fin S8x256x256.rank)
  shapeCasts_S8x256x256_S8x65536 : S8x256x256.ShapeCasts S8x65536
  bcast_S_S8x65536 : S_.BroadcastsInDim S8x65536 (![] : Fin 0 → Fin S8x65536.rank)
  reducesTo_S8x65536_S8_d1 : S8x65536.ReducesTo [1] S8
  bcast_S_S8 : S_.BroadcastsInDim S8 (![] : Fin 0 → Fin S8.rank)
  dot_S4096x256_S4096x256_S256x256_0_0_1_1_n_n_wf : DotDims.WF S4096x256 S4096x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096.size a ≤ S8x1x65536.size a
  hwx0_0 : ∀ i : grid0.Coords, EltTy.bits .f32 = 32 ∨ (Rect.block (s := S8x1x65536) S1x1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S8x1x65536.size a
  hwx0_1 : ∀ i : grid0.Coords, EltTy.bits .f32 = 32 ∨ (Rect.block (s := S8x1x65536) S1x1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S8x1x256.size a
  hwx0_3 : ∀ i : grid0.Coords, EltTy.bits .f32 = 32 ∨ (Rect.block (s := S8x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S8x1x256.size a
  hwx0_4 : ∀ i : grid0.Coords, EltTy.bits .f32 = 32 ∨ (Rect.block (s := S8x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S8x256x256.size a
  hwx0_5 : ∀ i : grid0.Coords, EltTy.bits .f32 = 32 ∨ (Rect.block (s := S8x256x256) S1x256x256.size (cc0_transform_5 i) (hinb0_5 i)).WholeWords (EltTy.packing .f32)

variable [Facts₀]

def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf

abbrev win0_0 : Pipeline.Window sig grid0 :=
  Pipeline.Window.ofSpec (Memref.whole main_v0) S1x1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x1x256x256 : Shape := ⟨4, ![8, 1, 256, 256]⟩
abbrev S256 : Shape := ⟨1, ![256]⟩
abbrev S_ : Shape := ⟨0, ![]⟩
abbrev S8x65536 : Shape := ⟨2, ![8, 65536]⟩
abbrev S8x65536x1 : Shape := ⟨3, ![8, 65536, 1]⟩
abbrev S1x1x256 : Shape := ⟨3, ![1, 1, 256]⟩
abbrev S8x65536x256 : Shape := ⟨3, ![8, 65536, 256]⟩
abbrev S8x256 : Shape := ⟨2, ![8, 256]⟩
abbrev S8 : Shape := ⟨1, ![8]⟩
abbrev S8x1 : Shape := ⟨2, ![8, 1]⟩
abbrev S8x256x256 : Shape := ⟨3, ![8, 256, 256]⟩
abbrev S8x1x1 : Shape := ⟨3, ![8, 1, 1]⟩

abbrev nBuf : Space → Nat
  | .hbm => 116
  | .vmem => 0
  | .smem => 0
  | _ => 0

abbrev bufTy : (tb : Table) → Fin (tcTables nBuf tb) → BufTy
  | .hbm, ⟨0, _⟩ => ⟨S8x1x256x256, .f32⟩
  | .hbm, ⟨1, _⟩ => ⟨S8x1x256x256, .f32⟩
  | .hbm, ⟨2, _⟩ => ⟨S256, .f32⟩
  | .hbm, ⟨3, _⟩ => ⟨S_, .f32⟩
  | .hbm, ⟨4, _⟩ => ⟨S8x1x256x256, .f32⟩
  | .hbm, ⟨5, _⟩ => ⟨S8x1x256x256, .f32⟩
  | .hbm, ⟨6, _⟩ => ⟨S8x65536, .f32⟩
  | .hbm, ⟨7, _⟩ => ⟨S_, .f32⟩
  | .hbm, ⟨8, _⟩ => ⟨S8x1x256x256, .f32⟩
  | .hbm, ⟨9, _⟩ => ⟨S8x1x256x256, .f32⟩
  | .hbm, ⟨10, _⟩ => ⟨S8x65536, .f32⟩
  | .hbm, ⟨11, _⟩ => ⟨S8x65536x1, .f32⟩
  | .hbm, ⟨12, _⟩ => ⟨S1x1x256, .f32⟩
  | .hbm, ⟨13, _⟩ => ⟨S8x65536x256, .f32⟩
  | .hbm, ⟨14, _⟩ => ⟨S8x65536x256, .f32⟩
  | .hbm, ⟨15, _⟩ => ⟨S8x65536x256, .f32⟩
  | .hbm, ⟨16, _⟩ => ⟨S_, .f32⟩
  | .hbm, ⟨17, _⟩ => ⟨S8x65536x256, .f32⟩
  | .hbm, ⟨18, _⟩ => ⟨S8x65536x256, .f32⟩
  | .hbm, ⟨19, _⟩ => ⟨S8x65536x256, .f32⟩
  | .hbm, ⟨20, _⟩ => ⟨S_, .f32⟩
  | .hbm, ⟨21, _⟩ => ⟨S8x65536x256, .f32⟩
  | .hbm, ⟨22, _⟩ => ⟨S8x65536x256, .f32⟩
  | .hbm, ⟨23, _⟩ => ⟨S8x65536x256, .f32⟩
  | .hbm, ⟨24, _⟩ => ⟨S_, .f32⟩
  | .hbm, ⟨25, _⟩ => ⟨S8x256, .f32⟩
  | .hbm, ⟨26, _⟩ => ⟨S_, .f32⟩
  | .hbm, ⟨27, _⟩ => ⟨S8x256, .f32⟩
  | .hbm, ⟨28, _⟩ => ⟨S8x256, .f32⟩
  | .hbm, ⟨29, _⟩ => ⟨S_, .f32⟩
  | .hbm, ⟨30, _⟩ => ⟨S8, .f32⟩
  | .hbm, ⟨31, _⟩ => ⟨S8x1, .f32⟩
  | .hbm, ⟨32, _⟩ => ⟨S_, .f32⟩
  | .hbm, ⟨33, _⟩ => ⟨S8x1, .f32⟩
  | .hbm, ⟨34, _⟩ => ⟨S8x1, .f32⟩
  | .hbm, ⟨35, _⟩ => ⟨S8x256, .f32⟩
  | .hbm, ⟨36, _⟩ => ⟨S8x256, .f32⟩
  | .hbm, ⟨37, _⟩ => ⟨S8x65536x1, .f32⟩
  | .hbm, ⟨38, _⟩ => ⟨S1x1x256, .f32⟩
  | .hbm, ⟨39, _⟩ => ⟨S8x65536x256, .f32⟩
  | .hbm, ⟨40, _⟩ => ⟨S8x65536x256, .f32⟩
  | .hbm, ⟨41, _⟩ => ⟨S8x65536x256, .f32⟩
  | .hbm, ⟨42, _⟩ => ⟨S_, .f32⟩
  | .hbm, ⟨43, _⟩ => ⟨S8x65536x256, .f32⟩
  | .hbm, ⟨44, _⟩ => ⟨S8x65536x256, .f32⟩
  | .hbm, ⟨45, _⟩ => ⟨S8x65536x256, .f32⟩
  | .hbm, ⟨46, _⟩ => ⟨S_, .f32⟩
  | .hbm, ⟨47, _⟩ => ⟨S8x65536x256, .f32⟩
  | .hbm, ⟨48, _⟩ => ⟨S8x65536x256, .f32⟩
  | .hbm, ⟨49, _⟩ => ⟨S8x65536x256, .f32⟩
  | .hbm, ⟨50, _⟩ => ⟨S_, .f32⟩
  | .hbm, ⟨51, _⟩ => ⟨S8x256, .f32⟩
  | .hbm, ⟨52, _⟩ => ⟨S_, .f32⟩
  | .hbm, ⟨53, _⟩ => ⟨S8x256, .f32⟩
  | .hbm, ⟨54, _⟩ => ⟨S8x256, .f32⟩
  | .hbm, ⟨55, _⟩ => ⟨S_, .f32⟩
  | .hbm, ⟨56, _⟩ => ⟨S8, .f32⟩
  | .hbm, ⟨57, _⟩ => ⟨S8x1, .f32⟩
  | .hbm, ⟨58, _⟩ => ⟨S_, .f32⟩
  | .hbm, ⟨59, _⟩ => ⟨S8x1, .f32⟩
  | .hbm, ⟨60, _⟩ => ⟨S8x1, .f32⟩
  | .hbm, ⟨61, _⟩ => ⟨S8x256, .f32⟩
  | .hbm, ⟨62, _⟩ => ⟨S8x256, .f32⟩
  | .hbm, ⟨63, _⟩ => ⟨S8x256x256, .f32⟩
  | .hbm, ⟨64, _⟩ => ⟨S_, .f32⟩
  | .hbm, ⟨65, _⟩ => ⟨S8, .f32⟩
  | .hbm, ⟨66, _⟩ => ⟨S8x1x1, .f32⟩
  | .hbm, ⟨67, _⟩ => ⟨S_, .f32⟩
  | .hbm, ⟨68, _⟩ => ⟨S8x1x1, .f32⟩
  | .hbm, ⟨69, _⟩ => ⟨S8x1x1, .f32⟩
  | .hbm, ⟨70, _⟩ => ⟨S8x256x256, .f32⟩
  | .hbm, ⟨71, _⟩ => ⟨S8x256x256, .f32⟩
  | .hbm, ⟨72, _⟩ => ⟨S_, .f32⟩
  | .hbm, ⟨73, _⟩ => ⟨S8x256, .f32⟩
  | .hbm, ⟨74, _⟩ => ⟨S8x256, .f32⟩
  | .hbm, ⟨75, _⟩ => ⟨S8x256, .f32⟩
  | .hbm, ⟨76, _⟩ => ⟨S_, .f32⟩
  | .hbm, ⟨77, _⟩ => ⟨S_, .f32⟩
  | .hbm, ⟨78, _⟩ => ⟨S8x256, .f32⟩
  | .hbm, ⟨79, _⟩ => ⟨S8x256, .f32⟩
  | .hbm, ⟨80, _⟩ => ⟨S8x256, .f32⟩
  | .hbm, ⟨81, _⟩ => ⟨S_, .f32⟩
  | .hbm, ⟨82, _⟩ => ⟨S8, .f32⟩
  | .hbm, ⟨83, _⟩ => ⟨S8, .f32⟩
  | .hbm, ⟨84, _⟩ => ⟨S_, .f32⟩
  | .hbm, ⟨85, _⟩ => ⟨S8x256, .f32⟩
  | .hbm, ⟨86, _⟩ => ⟨S8x256, .f32⟩
  | .hbm, ⟨87, _⟩ => ⟨S8x256, .f32⟩
  | .hbm, ⟨88, _⟩ => ⟨S_, .f32⟩
  | .hbm, ⟨89, _⟩ => ⟨S_, .f32⟩
  | .hbm, ⟨90, _⟩ => ⟨S8x256, .f32⟩
  | .hbm, ⟨91, _⟩ => ⟨S8x256, .f32⟩
  | .hbm, ⟨92, _⟩ => ⟨S8x256, .f32⟩
  | .hbm, ⟨93, _⟩ => ⟨S_, .f32⟩
  | .hbm, ⟨94, _⟩ => ⟨S8, .f32⟩
  | .hbm, ⟨95, _⟩ => ⟨S8, .f32⟩
  | .hbm, ⟨96, _⟩ => ⟨S8x65536, .f32⟩
  | .hbm, ⟨97, _⟩ => ⟨S_, .f32⟩
  | .hbm, ⟨98, _⟩ => ⟨S8x65536, .f32⟩
  | .hbm, ⟨99, _⟩ => ⟨S8x65536, .f32⟩
  | .hbm, ⟨100, _⟩ => ⟨S8x65536, .f32⟩
  | .hbm, ⟨101, _⟩ => ⟨S_, .f32⟩
  | .hbm, ⟨102, _⟩ => ⟨S_, .f32⟩
  | .hbm, ⟨103, _⟩ => ⟨S8x65536, .f32⟩
  | .hbm, ⟨104, _⟩ => ⟨S8x65536, .f32⟩
  | .hbm, ⟨105, _⟩ => ⟨S8x65536, .f32⟩
  | .hbm, ⟨106, _⟩ => ⟨S_, .f32⟩
  | .hbm, ⟨107, _⟩ => ⟨S8, .f32⟩
  | .hbm, ⟨108, _⟩ => ⟨S8, .f32⟩
  | .hbm, ⟨109, _⟩ => ⟨S8, .f32⟩
  | .hbm, ⟨110, _⟩ => ⟨S8, .f32⟩
  | .hbm, ⟨111, _⟩ => ⟨S_, .f32⟩
  | .hbm, ⟨112, _⟩ => ⟨S8, .f32⟩
  | .hbm, ⟨113, _⟩ => ⟨S8, .f32⟩
  | .hbm, ⟨114, _⟩ => ⟨S8, .f32⟩
  | .hbm, ⟨115, _⟩ => ⟨S8, .f32⟩
  | _, _ => ⟨S8x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_13 : Ref sig .tc := ⟨.hbm, 64, rfl⟩
abbrev main_v47 : Ref sig .tc := ⟨.hbm, 65, rfl⟩
abbrev main_v48 : Ref sig .tc := ⟨.hbm, 66, rfl⟩
abbrev main_cst_14 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_15 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_16 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_17 : Ref sig .tc := ⟨.hbm, 81, rfl⟩
abbrev main_v60 : Ref sig .tc := ⟨.hbm, 82, rfl⟩
abbrev main_v61 : Ref sig .tc := ⟨.hbm, 83, rfl⟩
abbrev main_cst_18 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_19 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_20 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_21 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_22 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_23 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_24 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]

class Facts₀ : Prop where
  bcast_S_S8x1x256x256 : S_.BroadcastsInDim S8x1x256x256 (![] : Fin 0 → Fin S8x1x256x256.rank)
  shapeCasts_S8x1x256x256_S8x65536 : S8x1x256x256.ShapeCasts S8x65536
  bcast_S8x65536_S8x65536x1_0_1 : S8x65536.BroadcastsInDim S8x65536x1 (![0, 1] : Fin 2 → Fin S8x65536x1.rank)
  bcast_S256_S1x1x256_2 : S256.BroadcastsInDim S1x1x256 (![2] : Fin 1 → Fin S1x1x256.rank)
  bcast_S8x65536x1_S8x65536x256_0_1_2 : S8x65536x1.BroadcastsInDim S8x65536x256 (![0, 1, 2] : Fin 3 → Fin S8x65536x256.rank)
  bcast_S1x1x256_S8x65536x256_0_1_2 : S1x1x256.BroadcastsInDim S8x65536x256 (![0, 1, 2] : Fin 3 → Fin S8x65536x256.rank)
  bcast_S_S8x65536x256 : S_.BroadcastsInDim S8x65536x256 (![] : Fin 0 → Fin S8x65536x256.rank)
  reducesTo_S8x65536x256_S8x256_d1 : S8x65536x256.ReducesTo [1] S8x256
  h_S_ : 0 < S_.numel
  bcast_S_S8x256 : S_.BroadcastsInDim S8x256 (![] : Fin 0 → Fin S8x256.rank)
  reducesTo_S8x256_S8_d1 : S8x256.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x256_0_1 : S8x1.BroadcastsInDim S8x256 (![0, 1] : Fin 2 → Fin S8x256.rank)
  reducesTo_S8x256x256_S8_d1_2 : S8x256x256.ReducesTo [1, 2] S8
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x256x256_0_1_2 : S8x1x1.BroadcastsInDim S8x256x256 (![0, 1, 2] : Fin 3 → Fin S8x256x256.rank)
  shapeCasts_S8x256x256_S8x65536 : S8x256x256.ShapeCasts S8x65536
  bcast_S_S8x65536 : S_.BroadcastsInDim S8x65536 (![] : Fin 0 → Fin S8x65536.rank)
  reducesTo_S8x65536_S8_d1 : S8x65536.ReducesTo [1] S8
  bcast_S_S8 : S_.BroadcastsInDim S8 (![] : Fin 0 → Fin S8.rank)
  dot_S8x65536x256_S8x65536x256_S8x256x256_1_1_2_2_0_0_wf : DotDims.WF S8x65536x256 S8x65536x256 S8x256x256 [1] [1] [2] [2] [0] [0]

variable [Facts₀]

def dot_S8x65536x256_S8x65536x256_S8x256x256_1_1_2_2_0_0 : DotDims S8x65536x256 S8x65536x256 S8x256x256 where
  lhsContracting := [1]
  rhsContracting := [1]
  lhsNonContracting := [2]
  rhsNonContracting := [2]
  lhsBatch := [0]
  rhsBatch := [0]
  wf := dot_S8x65536x256_S8x65536x256_S8x256x256_1_1_2_2_0_0_wf

class Facts : Prop extends Facts₀ where

variable [Facts]
-- ==== Proof.BitsRegion.lean ====
/-
  The region of the pallas_call inside @main, as the launch theorem wants it: the contents every buffer has when the
  region is entered (after the two reshapes [8,1,256,256] → [8,1,65536]), @main as "reshapes, region, 76 later lines",
  the side conditions of those later lines (they touch only unscoped buffers, allocate nothing, write no window's
  array), each window's block at a grid point, the two branch conditions of the body in closed form over the 8·16
  points (the tile index is the point modulo 16: zero resets the accumulators, fifteen writes them out), where the
  three output windows are idle, and the names of the staging and scratch memrefs.
-/
import proofs.«116807_j66838281060468_1_alg».proof.Proof.Gen.Kernel.Launch
import proofs.«116807_j66838281060468_1_alg».proof.Proof.Gen.Kernel.Skeleton
import proofs.«116807_j66838281060468_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option maxHeartbeats 40000000

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the two reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main is the reshapes, the region, then the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 4000000 in
/-- Each later line writes its own result buffer, which is no window's array. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## The argument arrays are written by no host line -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three argument arrays end as launched: the first two are staged by no window and written by no line; the third
    is an input window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).1 2).trans (((dats 0 c).arrAt_in 2 rfl _).trans ((hA c 2).trans (V_main_arg2 m c)))⟩) h

/-! ## The body's two branch conditions over the grid -/

/-- "This is the first tile of its row": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "This is the last tile of its row": the accumulators are written out. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## Names for the memrefs the body is called with -/

abbrev VO0_3 : View sig .tc .vmem S1x1x256 .f32 := (Memref.whole cc0_stg3_0 : Memref sig .tc .vmem S1x1x256 .f32).view
abbrev VO0_4 : View sig .tc .vmem S1x1x256 .f32 := (Memref.whole cc0_stg4_0 : Memref sig .tc .vmem S1x1x256 .f32).view
abbrev VO0_5 : View sig .tc .vmem S1x256x256 .f32 := (Memref.whole cc0_stg5_0 : Memref sig .tc .vmem S1x256x256 .f32).view
abbrev ms0_0 (t : Fin cfg0.N) : Memref sig .tc .vmem S1x1x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x256 .f32 := win0_5.stage (cfg0.slots t 5)
abbrev hs0_5 (t : Fin cfg0.N) : (ms0_5 t).IsWhole := hstage0_5 ((cfg0.slots t 5).cast nbuf0_5)
abbrev scM0_0 : Memref sig .tc .vmem S256 .f32 := Memref.whole cc0_scratch0
abbrev scM0_1 : Memref sig .tc .vmem S256 .f32 := Memref.whole cc0_scratch1
abbrev scM0_2 : Memref sig .tc .vmem S256x256 .f32 := Memref.whole cc0_scratch2
abbrev VS0_0 : View sig .tc .vmem S256 .f32 := scM0_0.view
abbrev VS0_1 : View sig .tc .vmem S256 .f32 := scM0_1.view
abbrev VS0_2 : View sig .tc .vmem S256x256 .f32 := scM0_2.view

/-- What the region may use and need not describe: the three accumulators at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Region

end
-- ==== Proof.BitsRunA.lean ====
/-
  The body at a FIRST tile (tile index 0; not the last): on whole memrefs — the three inputs at their blocks, the three
  outputs at contents handed back untouched, the three accumulators at anything — it runs to the end with each accumulator
  holding the pieces its stores wrote (first the zero fill, then zero plus this tile's column sums / joint products).
-/
import proofs.«116807_j66838281060468_1_alg».proof.Proof.BitsRegion

set_option maxRecDepth 16384
set_option maxHeartbeats 40000000

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256x256 .f32) (harg10 : arg10.IsWhole) (hc0 : cond0_0 i) (hc1 : ¬cond0_1 i)
    (x0 : Vec F S1x1x4096 .f32) (x1 : Vec F S1x1x4096 .f32) (x2 : Vec F S256 .f32) :
    Σ' (LS0 : List (View.Piece (Elt F) S256 .f32)) (LS1 : List (View.Piece (Elt F) S256 .f32)), { LS2 : List (View.Piece (Elt F) S256x256 .f32) //
      ∀ (xi3 : Vec F S1x1x256 .f32) (xi4 : Vec F S1x1x256 .f32) (xi5 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__mi_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__mi_kernel_eq_skeleton]; unfold cc0__mi_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Region

end
-- ==== Proof.BitsRunB.lean ====
/-
  The body at a MIDDLE tile (neither first nor last): on whole memrefs — the three inputs at their blocks, the three
  outputs at contents handed back untouched, the three accumulators at what the tile before left — it runs to the end
  with each accumulator holding the piece its one store wrote (the old contents plus this tile's column sums / joint products).
-/
import proofs.«116807_j66838281060468_1_alg».proof.Proof.BitsRunA

set_option maxRecDepth 16384
set_option maxHeartbeats 40000000

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256x256 .f32) (harg10 : arg10.IsWhole) (hc0 : ¬cond0_0 i) (hc1 : ¬cond0_1 i)
    (x0 : Vec F S1x1x4096 .f32) (x1 : Vec F S1x1x4096 .f32) (x2 : Vec F S256 .f32)
    (xs0 : Vec F S256 .f32) (xs1 : Vec F S256 .f32) (xs2 : Vec F S256x256 .f32) :
    Σ' (LS0 : List (View.Piece (Elt F) S256 .f32)) (LS1 : List (View.Piece (Elt F) S256 .f32)), { LS2 : List (View.Piece (Elt F) S256x256 .f32) //
      ∀ (xi3 : Vec F S1x1x256 .f32) (xi4 : Vec F S1x1x256 .f32) (xi5 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__mi_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__mi_kernel_eq_skeleton]; unfold cc0__mi_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Region

end
-- ==== Proof.BitsRunC.lean ====
/-
  The body at a LAST tile (tile index 15; not the first): on whole memrefs — the three inputs at their blocks, the three
  outputs at anything, the three accumulators at what the tile before left — it runs to the end with each accumulator
  holding the piece its store wrote and each output the piece copied out of its accumulator.
-/
import proofs.«116807_j66838281060468_1_alg».proof.Proof.BitsRunB

set_option maxRecDepth 16384
set_option maxHeartbeats 40000000

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256x256 .f32) (harg10 : arg10.IsWhole) (hc0 : ¬cond0_0 i) (hc1 : cond0_1 i)
    (x0 : Vec F S1x1x4096 .f32) (x1 : Vec F S1x1x4096 .f32) (x2 : Vec F S256 .f32)
    (xs0 : Vec F S256 .f32) (xs1 : Vec F S256 .f32) (xs2 : Vec F S256x256 .f32) :
    Σ' (L3 : List (View.Piece (Elt F) S1x1x256 .f32)) (L4 : List (View.Piece (Elt F) S1x1x256 .f32)) (L5 : List (View.Piece (Elt F) S1x256x256 .f32)) (LS0 : List (View.Piece (Elt F) S256 .f32)) (LS1 : List (View.Piece (Elt F) S256 .f32)), { LS2 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__mi_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__mi_kernel_eq_skeleton]; unfold cc0__mi_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.Kernel.Region

end
-- ==== Proof.BitsFrame.lean ====
/-
  The pipeline's proof data for the kernel and its run. What the three accumulators hold after each grid point is
  defined by recursion on the point: at a first tile (point ≡ 0 mod 16) the body's stores over anything, at every
  other point the body's stores over what the point before left; the three outputs hold, at a last tile (point ≡ 15
  mod 16), the pieces copied out of the accumulators, and are idle elsewhere. The region invariant carries the
  accumulators at those contents from point to point. From this: the body obligation at every point, the run of @main
  (reshapes, region, later lines) and the frame.
-/
import proofs.«116807_j66838281060468_1_alg».proof.Proof.BitsRunC

set_option maxRecDepth 16384
set_option maxHeartbeats 40000000

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases of the body at a grid point, over the point's memrefs and input blocks -/

/-- A first tile. -/
def caseA (c : Dev nD) (t : Fin cfg0.N) (h0 : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t)
/-- A middle tile, over what the accumulators held. -/
def caseB (c : Dev nD) (t : Fin cfg0.N) (h0 : ¬t.val % 16 = 0) (h1 : ¬t.val % 16 = 15) (xs0 xs1 : Vec F S256 .f32) (xs2 : Vec F S256x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) xs0 xs1 xs2
/-- A last tile, over what the accumulators held. -/
def caseC (c : Dev nD) (t : Fin cfg0.N) (h0 : ¬t.val % 16 = 0) (h1 : t.val % 16 = 15) (xs0 xs1 : Vec F S256 .f32) (xs2 : Vec F S256x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2

/-- What the accumulators and the outputs hold after a point: the three outputs' staging buffers, then the three accumulators. -/
structure Outs (F : FTy → Type) where
  o3 : Vec F S1x1x256 .f32
  o4 : Vec F S1x1x256 .f32
  o5 : Vec F S1x256x256 .f32
  s0 : Vec F S256 .f32
  s1 : Vec F S256 .f32
  s2 : Vec F S256x256 .f32

/-- After a first tile: the accumulators' pieces read back; the outputs untouched (a placeholder nothing consults). -/
def outsA (c : Dev nD) (t : Fin cfg0.N) (h0 : t.val % 16 = 0) : Outs F where
  o3 := VO0_3.read (Elt F) VO0_3.junk
  o4 := VO0_4.read (Elt F) VO0_4.junk
  o5 := VO0_5.read (Elt F) VO0_5.junk
  s0 := VS0_0.read (Elt F) (VS0_0.writes (Elt F) VS0_0.junk (caseA m c t h0).1)
  s1 := VS0_1.read (Elt F) (VS0_1.writes (Elt F) VS0_1.junk (caseA m c t h0).2.1)
  s2 := VS0_2.read (Elt F) (VS0_2.writes (Elt F) VS0_2.junk (caseA m c t h0).2.2.1)
/-- After a middle tile. -/
def outsB (c : Dev nD) (t : Fin cfg0.N) (h0 : ¬t.val % 16 = 0) (h1 : ¬t.val % 16 = 15) (p : Outs F) : Outs F where
  o3 := VO0_3.read (Elt F) VO0_3.junk
  o4 := VO0_4.read (Elt F) VO0_4.junk
  o5 := VO0_5.read (Elt F) VO0_5.junk
  s0 := VS0_0.read (Elt F) (VS0_0.writes (Elt F) VS0_0.junk (caseB m c t h0 h1 p.s0 p.s1 p.s2).1)
  s1 := VS0_1.read (Elt F) (VS0_1.writes (Elt F) VS0_1.junk (caseB m c t h0 h1 p.s0 p.s1 p.s2).2.1)
  s2 := VS0_2.read (Elt F) (VS0_2.writes (Elt F) VS0_2.junk (caseB m c t h0 h1 p.s0 p.s1 p.s2).2.2.1)
/-- After a last tile: also the outputs' pieces. -/
def outsC (c : Dev nD) (t : Fin cfg0.N) (h0 : ¬t.val % 16 = 0) (h1 : t.val % 16 = 15) (p : Outs F) : Outs F where
  o3 := VO0_3.read (Elt F) (VO0_3.writes (Elt F) VO0_3.junk (caseC m c t h0 h1 p.s0 p.s1 p.s2).1)
  o4 := VO0_4.read (Elt F) (VO0_4.writes (Elt F) VO0_4.junk (caseC m c t h0 h1 p.s0 p.s1 p.s2).2.1)
  o5 := VO0_5.read (Elt F) (VO0_5.writes (Elt F) VO0_5.junk (caseC m c t h0 h1 p.s0 p.s1 p.s2).2.2.1)
  s0 := VS0_0.read (Elt F) (VS0_0.writes (Elt F) VS0_0.junk (caseC m c t h0 h1 p.s0 p.s1 p.s2).2.2.2.1)
  s1 := VS0_1.read (Elt F) (VS0_1.writes (Elt F) VS0_1.junk (caseC m c t h0 h1 p.s0 p.s1 p.s2).2.2.2.2.1)
  s2 := VS0_2.read (Elt F) (VS0_2.writes (Elt F) VS0_2.junk (caseC m c t h0 h1 p.s0 p.s1 p.s2).2.2.2.2.2.1)

/-! ## The pieces cover their buffers -/

theorem scoverA_0 (c : Dev nD) (t : Fin cfg0.N) (h0 : t.val % 16 = 0) (y : S256.Idx) :
    ∃ pc ∈ (caseA m c t h0).1, y ∈ pc.1.set :=
  View.cover_of_tiledL (caseA m c t h0).1 S256.size (by sl_kernel_rfl) y
theorem scoverA_1 (c : Dev nD) (t : Fin cfg0.N) (h0 : t.val % 16 = 0) (y : S256.Idx) :
    ∃ pc ∈ (caseA m c t h0).2.1, y ∈ pc.1.set :=
  View.cover_of_tiledL (caseA m c t h0).2.1 S256.size (by sl_kernel_rfl) y
theorem scoverA_2 (c : Dev nD) (t : Fin cfg0.N) (h0 : t.val % 16 = 0) (y : S256x256.Idx) :
    ∃ pc ∈ (caseA m c t h0).2.2.1, y ∈ pc.1.set :=
  View.cover_of_tiledL (caseA m c t h0).2.2.1 S256x256.size (by sl_kernel_rfl) y
theorem scoverB_0 (c : Dev nD) (t : Fin cfg0.N) (h0 : ¬t.val % 16 = 0) (h1 : ¬t.val % 16 = 15) (xs0 xs1 : Vec F S256 .f32) (xs2 : Vec F S256x256 .f32) (y : S256.Idx) :
    ∃ pc ∈ (caseB m c t h0 h1 xs0 xs1 xs2).1, y ∈ pc.1.set :=
  View.cover_of_tiledL (caseB m c t h0 h1 xs0 xs1 xs2).1 S256.size (by sl_kernel_rfl) y
theorem scoverB_1 (c : Dev nD) (t : Fin cfg0.N) (h0 : ¬t.val % 16 = 0) (h1 : ¬t.val % 16 = 15) (xs0 xs1 : Vec F S256 .f32) (xs2 : Vec F S256x256 .f32) (y : S256.Idx) :
    ∃ pc ∈ (caseB m c t h0 h1 xs0 xs1 xs2).2.1, y ∈ pc.1.set :=
  View.cover_of_tiledL (caseB m c t h0 h1 xs0 xs1 xs2).2.1 S256.size (by sl_kernel_rfl) y
theorem scoverB_2 (c : Dev nD) (t : Fin cfg0.N) (h0 : ¬t.val % 16 = 0) (h1 : ¬t.val % 16 = 15) (xs0 xs1 : Vec F S256 .f32) (xs2 : Vec F S256x256 .f32) (y : S256x256.Idx) :
    ∃ pc ∈ (caseB m c t h0 h1 xs0 xs1 xs2).2.2.1, y ∈ pc.1.set :=
  View.cover_of_tiledL (caseB m c t h0 h1 xs0 xs1 xs2).2.2.1 S256x256.size (by sl_kernel_rfl) y
theorem scoverC_0 (c : Dev nD) (t : Fin cfg0.N) (h0 : ¬t.val % 16 = 0) (h1 : t.val % 16 = 15) (xs0 xs1 : Vec F S256 .f32) (xs2 : Vec F S256x256 .f32) (y : S256.Idx) :
    ∃ pc ∈ (caseC m c t h0 h1 xs0 xs1 xs2).2.2.2.1, y ∈ pc.1.set :=
  View.cover_of_tiledL (caseC m c t h0 h1 xs0 xs1 xs2).2.2.2.1 S256.size (by sl_kernel_rfl) y
theorem scoverC_1 (c : Dev nD) (t : Fin cfg0.N) (h0 : ¬t.val % 16 = 0) (h1 : t.val % 16 = 15) (xs0 xs1 : Vec F S256 .f32) (xs2 : Vec F S256x256 .f32) (y : S256.Idx) :
    ∃ pc ∈ (caseC m c t h0 h1 xs0 xs1 xs2).2.2.2.2.1, y ∈ pc.1.set :=
  View.cover_of_tiledL (caseC m c t h0 h1 xs0 xs1 xs2).2.2.2.2.1 S256.size (by sl_kernel_rfl) y
theorem scoverC_2 (c : Dev nD) (t : Fin cfg0.N) (h0 : ¬t.val % 16 = 0) (h1 : t.val % 16 = 15) (xs0 xs1 : Vec F S256 .f32) (xs2 : Vec F S256x256 .f32) (y : S256x256.Idx) :
    ∃ pc ∈ (caseC m c t h0 h1 xs0 xs1 xs2).2.2.2.2.2.1, y ∈ pc.1.set :=
  View.cover_of_tiledL (caseC m c t h0 h1 xs0 xs1 xs2).2.2.2.2.2.1 S256x256.size (by sl_kernel_rfl) y
theorem coverC_3 (c : Dev nD) (t : Fin cfg0.N) (h0 : ¬t.val % 16 = 0) (h1 : t.val % 16 = 15) (xs0 xs1 : Vec F S256 .f32) (xs2 : Vec F S256x256 .f32) (y : S1x1x256.Idx) :
    ∃ pc ∈ (caseC m c t h0 h1 xs0 xs1 xs2).1, y ∈ pc.1.set :=
  View.cover_of_tiledL (caseC m c t h0 h1 xs0 xs1 xs2).1 S1x1x256.size (by sl_kernel_rfl) y
theorem coverC_4 (c : Dev nD) (t : Fin cfg0.N) (h0 : ¬t.val % 16 = 0) (h1 : t.val % 16 = 15) (xs0 xs1 : Vec F S256 .f32) (xs2 : Vec F S256x256 .f32) (y : S1x1x256.Idx) :
    ∃ pc ∈ (caseC m c t h0 h1 xs0 xs1 xs2).2.1, y ∈ pc.1.set :=
  View.cover_of_tiledL (caseC m c t h0 h1 xs0 xs1 xs2).2.1 S1x1x256.size (by sl_kernel_rfl) y
theorem coverC_5 (c : Dev nD) (t : Fin cfg0.N) (h0 : ¬t.val % 16 = 0) (h1 : t.val % 16 = 15) (xs0 xs1 : Vec F S256 .f32) (xs2 : Vec F S256x256 .f32) (y : S1x256x256.Idx) :
    ∃ pc ∈ (caseC m c t h0 h1 xs0 xs1 xs2).2.2.1, y ∈ pc.1.set :=
  View.cover_of_tiledL (caseC m c t h0 h1 xs0 xs1 xs2).2.2.1 S1x256x256.size (by sl_kernel_rfl) y

/-! ## What the buffers hold after each point -/

/-- By recursion on the point: the case its tile index selects, over what the point before left. -/
def outsAt0 (c : Dev nD) : (n : ℕ) → n < cfg0.N → Outs F
  | 0, hn => outsA m c ⟨0, hn⟩ rfl
  | n + 1, hn =>
    if h0 : (n + 1) % 16 = 0 then outsA m c ⟨n + 1, hn⟩ h0
    else if h1 : (n + 1) % 16 = 15 then outsC m c ⟨n + 1, hn⟩ h0 h1 (outsAt0 c n (Nat.lt_of_succ_lt hn))
    else outsB m c ⟨n + 1, hn⟩ h0 h1 (outsAt0 c n (Nat.lt_of_succ_lt hn))

theorem outsAt0_A (c : Dev nD) (t : Fin cfg0.N) (h0 : t.val % 16 = 0) :
    outsAt0 m c t.val t.isLt = outsA m c t h0 := by
  obtain ⟨n, hn⟩ := t
  cases n with
  | zero => rfl
  | succ n => exact dif_pos h0

theorem outsAt0_B (c : Dev nD) (t : Fin cfg0.N) (h0 : ¬t.val % 16 = 0) (h1 : ¬t.val % 16 = 15) :
    outsAt0 m c t.val t.isLt = outsB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 16 = 0) (h1 : t.val % 16 = 15) :
    outsAt0 m c t.val t.isLt = outsC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The accumulators at named contents, and the generator register at some state. -/
def accs (c : Dev nD) (p : Outs F) : sProp 𝕄 :=
  iprop(iprop(owns (c : Thread nD τ) scM0_0 fullShare p.s0 ∗ owns (c : Thread nD τ) scM0_1 fullShare p.s1 ∗ owns (c : Thread nD τ) scM0_2 fullShare p.s2) ∗ (∃ r, prngReg c r))

/-- The region invariant before position `n`: before the first point the accumulators hold anything; afterwards what the
    point before left. -/
def PhiS (c : Dev nD) : (n : ℕ) → n ≤ cfg0.N → sProp 𝕄
  | 0, _ => Pipeline.ΦA spec0 c
  | n + 1, hn => accs c (outsAt0 m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = accs c (outsAt0 m c n hn) := rfl
theorem PhiS_pos (c : Dev nD) (n : ℕ) (h : n ≤ cfg0.N) (hz : n ≠ 0) :
    PhiS m c n h = accs c (outsAt0 m c (n - 1) (by omega)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).o3
    | ⟨4, _⟩ => (outsAt0 m c t.val t.isLt).o4
    | ⟨5, _⟩ => (outsAt0 m c t.val t.isLt).o5
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).o3 := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any point: the inputs' memrefs hold their blocks; the tile index says which case the point is in; the
    invariant hands the body the accumulators at what the point before left (at anything before the first point) and
    takes them back at this point's contents; an idle output is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · have h1 : ¬t.val % 16 = 15 := by omega
    have hc1 : ¬cond0_1 (grid0.coords t) := fun h => h1 ((hcond0_1 t).mp h)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [Dat.leavesExact_idle (dats m 0 c) 3 t (idleAt0_3 t hc1) (noFlush0_3 t hc1)]
    rw [Dat.leavesExact_idle (dats m 0 c) 4 t (idleAt0_4 t hc1) (noFlush0_4 t hc1)]
    rw [Dat.leavesExact_idle (dats m 0 c) 5 t (idleAt0_5 t hc1) (noFlush0_5 t hc1)]
    rw [outsAt0_A m c t h0]
    unfold accs outsA; dsimp only
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((caseA m c t h0).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverA_0 m c t h0)
          isplitl [HS1]
          · unfold owns; iexists _; isplitr
            swap; · iexact HS1
            ipureintro; exact View.read_writes_of_cover _ _ _ _ _ (scoverA_1 m c t h0)
          unfold owns; iexists _; isplitr
          swap; · iexact HS2
          ipureintro; exact View.read_writes_of_cover _ _ _ _ _ (scoverA_2 m c t h0)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [PhiS_castSucc m c t, PhiS_pos m c _ _ hz]
      unfold accs
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((caseA m c t h0).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverA_0 m c t h0)
          isplitl [HS1]
          · unfold owns; iexists _; isplitr
            swap; · iexact HS1
            ipureintro; exact View.read_writes_of_cover _ _ _ _ _ (scoverA_1 m c t h0)
          unfold owns; iexists _; isplitr
          swap; · iexact HS2
          ipureintro; exact View.read_writes_of_cover _ _ _ _ _ (scoverA_2 m c t h0)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hz : t.val ≠ 0 := fun e => h0 (by rw [e])
    by_cases h1 : t.val % 16 = 15
    · have hc1 : cond0_1 (grid0.coords t) := (hcond0_1 t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t hc1], after0_3]
      rw [show (dats m 0 c).leavesExact 4 t = owns (c : Thread nD τ) (ms0_4 t) fullShare ((dats m 0 c).after 4 t) from by
        unfold Dat.leavesExact; rw [liveAt0_4 t hc1], after0_4]
      rw [show (dats m 0 c).leavesExact 5 t = owns (c : Thread nD τ) (ms0_5 t) fullShare ((dats m 0 c).after 5 t) from by
        unfold Dat.leavesExact; rw [liveAt0_5 t hc1], after0_5]
      rw [outsAt0_C m c t h0 h1]
      unfold accs outsC; dsimp only
      rw [PhiS_castSucc m c t, PhiS_pos m c _ _ hz]
      unfold accs
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((caseC m c t h0 h1 _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%e3, H3⟩, ⟨%e4, H4⟩, ⟨%e5, H5⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverC_0 m c t h0 h1 _ _ _)
          isplitl [HS1]
          · unfold owns; iexists _; isplitr
            swap; · iexact HS1
            ipureintro; exact View.read_writes_of_cover _ _ _ _ _ (scoverC_1 m c t h0 h1 _ _ _)
          unfold owns; iexists _; isplitr
          swap; · iexact HS2
          ipureintro; exact View.read_writes_of_cover _ _ _ _ _ (scoverC_2 m c t h0 h1 _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_3 m c t h0 h1 _ _ _)
      isplitl [H4]
      · unfold owns; iexists _; isplitr
        swap; · iexact H4
        ipureintro; exact View.read_writes_of_cover _ _ _ _ _ (coverC_4 m c t h0 h1 _ _ _)
      unfold owns; iexists _; isplitr
      swap; · iexact H5
      ipureintro; exact View.read_writes_of_cover _ _ _ _ _ (coverC_5 m c t h0 h1 _ _ _)
    · have hc1 : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t hc1) (noFlush0_3 t hc1)]
      rw [Dat.leavesExact_idle (dats m 0 c) 4 t (idleAt0_4 t hc1) (noFlush0_4 t hc1)]
      rw [Dat.leavesExact_idle (dats m 0 c) 5 t (idleAt0_5 t hc1) (noFlush0_5 t hc1)]
      rw [outsAt0_B m c t h0 h1]
      unfold accs outsB; dsimp only
      rw [PhiS_castSucc m c t, PhiS_pos m c _ _ hz]
      unfold accs
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((caseB m c t h0 h1 _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverB_0 m c t h0 h1 _ _ _)
          isplitl [HS1]
          · unfold owns; iexists _; isplitr
            swap; · iexact HS1
            ipureintro; exact View.read_writes_of_cover _ _ _ _ _ (scoverB_1 m c t h0 h1 _ _ _)
          unfold owns; iexists _; isplitr
          swap; · iexact HS2
          ipureintro; exact View.read_writes_of_cover _ _ _ _ _ (scoverB_2 m c t h0 h1 _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  unfold accs
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates; at the end every window's array holds what the library computes
    from the proof data, and every other unscoped buffer what the later lines leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- The frame: @main runs to the end and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Region

end
-- ==== Proof.IdealRegion.lean ====
/-
  The region of the pallas_call inside @main, as the launch theorem wants it: the contents every buffer has when the
  region is entered (after the two reshapes [8,1,256,256] → [8,1,65536]), @main as "reshapes, region, 76 later lines",
  the side conditions of those later lines (they touch only unscoped buffers, allocate nothing, write no window's
  array), each window's block at a grid point, the two branch conditions of the body in closed form over the 8·16
  points (the tile index is the point modulo 16: zero resets the accumulators, fifteen writes them out), where the
  three output windows are idle, and the names of the staging and scratch memrefs.
-/
import proofs.«116807_j66838281060468_1_alg».proof.Proof.Gen.KernelIdeal.Launch
import proofs.«116807_j66838281060468_1_alg».proof.Proof.Gen.KernelIdeal.Skeleton
import proofs.«116807_j66838281060468_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option maxHeartbeats 40000000

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the two reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main is the reshapes, the region, then the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 4000000 in
/-- Each later line writes its own result buffer, which is no window's array. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## The argument arrays are written by no host line -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three argument arrays end as launched: the first two are staged by no window and written by no line; the third
    is an input window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).1 2).trans (((dats 0 c).arrAt_in 2 rfl _).trans ((hA c 2).trans (V_main_arg2 m c)))⟩) h

/-! ## The body's two branch conditions over the grid -/

/-- "This is the first tile of its row": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "This is the last tile of its row": the accumulators are written out. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## Names for the memrefs the body is called with -/

abbrev VO0_3 : View sig .tc .vmem S1x1x256 .f32 := (Memref.whole cc0_stg3_0 : Memref sig .tc .vmem S1x1x256 .f32).view
abbrev VO0_4 : View sig .tc .vmem S1x1x256 .f32 := (Memref.whole cc0_stg4_0 : Memref sig .tc .vmem S1x1x256 .f32).view
abbrev VO0_5 : View sig .tc .vmem S1x256x256 .f32 := (Memref.whole cc0_stg5_0 : Memref sig .tc .vmem S1x256x256 .f32).view
abbrev ms0_0 (t : Fin cfg0.N) : Memref sig .tc .vmem S1x1x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x256 .f32 := win0_5.stage (cfg0.slots t 5)
abbrev hs0_5 (t : Fin cfg0.N) : (ms0_5 t).IsWhole := hstage0_5 ((cfg0.slots t 5).cast nbuf0_5)
abbrev scM0_0 : Memref sig .tc .vmem S256 .f32 := Memref.whole cc0_scratch0
abbrev scM0_1 : Memref sig .tc .vmem S256 .f32 := Memref.whole cc0_scratch1
abbrev scM0_2 : Memref sig .tc .vmem S256x256 .f32 := Memref.whole cc0_scratch2
abbrev VS0_0 : View sig .tc .vmem S256 .f32 := scM0_0.view
abbrev VS0_1 : View sig .tc .vmem S256 .f32 := scM0_1.view
abbrev VS0_2 : View sig .tc .vmem S256x256 .f32 := scM0_2.view

/-- What the region may use and need not describe: the three accumulators at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Region

end
-- ==== Proof.IdealRunA.lean ====
/-
  The body at a FIRST tile (tile index 0; not the last): on whole memrefs — the three inputs at their blocks, the three
  outputs at contents handed back untouched, the three accumulators at anything — it runs to the end with each accumulator
  holding the pieces its stores wrote (first the zero fill, then zero plus this tile's column sums / joint products).
-/
import proofs.«116807_j66838281060468_1_alg».proof.Proof.IdealRegion

set_option maxRecDepth 16384
set_option maxHeartbeats 40000000

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256x256 .f32) (harg10 : arg10.IsWhole) (hc0 : cond0_0 i) (hc1 : ¬cond0_1 i)
    (x0 : Vec F S1x1x4096 .f32) (x1 : Vec F S1x1x4096 .f32) (x2 : Vec F S256 .f32) :
    Σ' (LS0 : List (View.Piece (Elt F) S256 .f32)) (LS1 : List (View.Piece (Elt F) S256 .f32)), { LS2 : List (View.Piece (Elt F) S256x256 .f32) //
      ∀ (xi3 : Vec F S1x1x256 .f32) (xi4 : Vec F S1x1x256 .f32) (xi5 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__mi_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__mi_kernel_eq_skeleton]; unfold cc0__mi_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Region

end
-- ==== Proof.IdealRunB.lean ====
/-
  The body at a MIDDLE tile (neither first nor last): on whole memrefs — the three inputs at their blocks, the three
  outputs at contents handed back untouched, the three accumulators at what the tile before left — it runs to the end
  with each accumulator holding the piece its one store wrote (the old contents plus this tile's column sums / joint products).
-/
import proofs.«116807_j66838281060468_1_alg».proof.Proof.IdealRunA

set_option maxRecDepth 16384
set_option maxHeartbeats 40000000

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256x256 .f32) (harg10 : arg10.IsWhole) (hc0 : ¬cond0_0 i) (hc1 : ¬cond0_1 i)
    (x0 : Vec F S1x1x4096 .f32) (x1 : Vec F S1x1x4096 .f32) (x2 : Vec F S256 .f32)
    (xs0 : Vec F S256 .f32) (xs1 : Vec F S256 .f32) (xs2 : Vec F S256x256 .f32) :
    Σ' (LS0 : List (View.Piece (Elt F) S256 .f32)) (LS1 : List (View.Piece (Elt F) S256 .f32)), { LS2 : List (View.Piece (Elt F) S256x256 .f32) //
      ∀ (xi3 : Vec F S1x1x256 .f32) (xi4 : Vec F S1x1x256 .f32) (xi5 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__mi_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__mi_kernel_eq_skeleton]; unfold cc0__mi_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Region

end
-- ==== Proof.IdealRunC.lean ====
/-
  The body at a LAST tile (tile index 15; not the first): on whole memrefs — the three inputs at their blocks, the three
  outputs at anything, the three accumulators at what the tile before left — it runs to the end with each accumulator
  holding the piece its store wrote and each output the piece copied out of its accumulator.
-/
import proofs.«116807_j66838281060468_1_alg».proof.Proof.IdealRunB

set_option maxRecDepth 16384
set_option maxHeartbeats 40000000

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S256 .f32) (harg8 : arg8.IsWhole) (arg9 : Memref sig .tc .vmem S256 .f32) (harg9 : arg9.IsWhole) (arg10 : Memref sig .tc .vmem S256x256 .f32) (harg10 : arg10.IsWhole) (hc0 : ¬cond0_0 i) (hc1 : cond0_1 i)
    (x0 : Vec F S1x1x4096 .f32) (x1 : Vec F S1x1x4096 .f32) (x2 : Vec F S256 .f32)
    (xs0 : Vec F S256 .f32) (xs1 : Vec F S256 .f32) (xs2 : Vec F S256x256 .f32) :
    Σ' (L3 : List (View.Piece (Elt F) S1x1x256 .f32)) (L4 : List (View.Piece (Elt F) S1x1x256 .f32)) (L5 : List (View.Piece (Elt F) S1x256x256 .f32)) (LS0 : List (View.Piece (Elt F) S256 .f32)) (LS1 : List (View.Piece (Elt F) S256 .f32)), { LS2 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__mi_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__mi_kernel_eq_skeleton]; unfold cc0__mi_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.KernelIdeal.Region

end
-- ==== Proof.IdealFrame.lean ====
/-
  The pipeline's proof data for the kernel and its run. What the three accumulators hold after each grid point is
  defined by recursion on the point: at a first tile (point ≡ 0 mod 16) the body's stores over anything, at every
  other point the body's stores over what the point before left; the three outputs hold, at a last tile (point ≡ 15
  mod 16), the pieces copied out of the accumulators, and are idle elsewhere. The region invariant carries the
  accumulators at those contents from point to point. From this: the body obligation at every point, the run of @main
  (reshapes, region, later lines) and the frame.
-/
import proofs.«116807_j66838281060468_1_alg».proof.Proof.IdealRunC

set_option maxRecDepth 16384
set_option maxHeartbeats 40000000

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The three cases of the body at a grid point, over the point's memrefs and input blocks -/

/-- A first tile. -/
def caseA (c : Dev nD) (t : Fin cfg0.N) (h0 : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t)
/-- A middle tile, over what the accumulators held. -/
def caseB (c : Dev nD) (t : Fin cfg0.N) (h0 : ¬t.val % 16 = 0) (h1 : ¬t.val % 16 = 15) (xs0 xs1 : Vec F S256 .f32) (xs2 : Vec F S256x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) xs0 xs1 xs2
/-- A last tile, over what the accumulators held. -/
def caseC (c : Dev nD) (t : Fin cfg0.N) (h0 : ¬t.val % 16 = 0) (h1 : t.val % 16 = 15) (xs0 xs1 : Vec F S256 .f32) (xs2 : Vec F S256x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2

/-- What the accumulators and the outputs hold after a point: the three outputs' staging buffers, then the three accumulators. -/
structure Outs (F : FTy → Type) where
  o3 : Vec F S1x1x256 .f32
  o4 : Vec F S1x1x256 .f32
  o5 : Vec F S1x256x256 .f32
  s0 : Vec F S256 .f32
  s1 : Vec F S256 .f32
  s2 : Vec F S256x256 .f32

/-- After a first tile: the accumulators' pieces read back; the outputs untouched (a placeholder nothing consults). -/
def outsA (c : Dev nD) (t : Fin cfg0.N) (h0 : t.val % 16 = 0) : Outs F where
  o3 := VO0_3.read (Elt F) VO0_3.junk
  o4 := VO0_4.read (Elt F) VO0_4.junk
  o5 := VO0_5.read (Elt F) VO0_5.junk
  s0 := VS0_0.read (Elt F) (VS0_0.writes (Elt F) VS0_0.junk (caseA m c t h0).1)
  s1 := VS0_1.read (Elt F) (VS0_1.writes (Elt F) VS0_1.junk (caseA m c t h0).2.1)
  s2 := VS0_2.read (Elt F) (VS0_2.writes (Elt F) VS0_2.junk (caseA m c t h0).2.2.1)
/-- After a middle tile. -/
def outsB (c : Dev nD) (t : Fin cfg0.N) (h0 : ¬t.val % 16 = 0) (h1 : ¬t.val % 16 = 15) (p : Outs F) : Outs F where
  o3 := VO0_3.read (Elt F) VO0_3.junk
  o4 := VO0_4.read (Elt F) VO0_4.junk
  o5 := VO0_5.read (Elt F) VO0_5.junk
  s0 := VS0_0.read (Elt F) (VS0_0.writes (Elt F) VS0_0.junk (caseB m c t h0 h1 p.s0 p.s1 p.s2).1)
  s1 := VS0_1.read (Elt F) (VS0_1.writes (Elt F) VS0_1.junk (caseB m c t h0 h1 p.s0 p.s1 p.s2).2.1)
  s2 := VS0_2.read (Elt F) (VS0_2.writes (Elt F) VS0_2.junk (caseB m c t h0 h1 p.s0 p.s1 p.s2).2.2.1)
/-- After a last tile: also the outputs' pieces. -/
def outsC (c : Dev nD) (t : Fin cfg0.N) (h0 : ¬t.val % 16 = 0) (h1 : t.val % 16 = 15) (p : Outs F) : Outs F where
  o3 := VO0_3.read (Elt F) (VO0_3.writes (Elt F) VO0_3.junk (caseC m c t h0 h1 p.s0 p.s1 p.s2).1)
  o4 := VO0_4.read (Elt F) (VO0_4.writes (Elt F) VO0_4.junk (caseC m c t h0 h1 p.s0 p.s1 p.s2).2.1)
  o5 := VO0_5.read (Elt F) (VO0_5.writes (Elt F) VO0_5.junk (caseC m c t h0 h1 p.s0 p.s1 p.s2).2.2.1)
  s0 := VS0_0.read (Elt F) (VS0_0.writes (Elt F) VS0_0.junk (caseC m c t h0 h1 p.s0 p.s1 p.s2).2.2.2.1)
  s1 := VS0_1.read (Elt F) (VS0_1.writes (Elt F) VS0_1.junk (caseC m c t h0 h1 p.s0 p.s1 p.s2).2.2.2.2.1)
  s2 := VS0_2.read (Elt F) (VS0_2.writes (Elt F) VS0_2.junk (caseC m c t h0 h1 p.s0 p.s1 p.s2).2.2.2.2.2.1)

/-! ## The pieces cover their buffers -/

theorem scoverA_0 (c : Dev nD) (t : Fin cfg0.N) (h0 : t.val % 16 = 0) (y : S256.Idx) :
    ∃ pc ∈ (caseA m c t h0).1, y ∈ pc.1.set :=
  View.cover_of_tiledL (caseA m c t h0).1 S256.size (by sl_kernel_rfl) y
theorem scoverA_1 (c : Dev nD) (t : Fin cfg0.N) (h0 : t.val % 16 = 0) (y : S256.Idx) :
    ∃ pc ∈ (caseA m c t h0).2.1, y ∈ pc.1.set :=
  View.cover_of_tiledL (caseA m c t h0).2.1 S256.size (by sl_kernel_rfl) y
theorem scoverA_2 (c : Dev nD) (t : Fin cfg0.N) (h0 : t.val % 16 = 0) (y : S256x256.Idx) :
    ∃ pc ∈ (caseA m c t h0).2.2.1, y ∈ pc.1.set :=
  View.cover_of_tiledL (caseA m c t h0).2.2.1 S256x256.size (by sl_kernel_rfl) y
theorem scoverB_0 (c : Dev nD) (t : Fin cfg0.N) (h0 : ¬t.val % 16 = 0) (h1 : ¬t.val % 16 = 15) (xs0 xs1 : Vec F S256 .f32) (xs2 : Vec F S256x256 .f32) (y : S256.Idx) :
    ∃ pc ∈ (caseB m c t h0 h1 xs0 xs1 xs2).1, y ∈ pc.1.set :=
  View.cover_of_tiledL (caseB m c t h0 h1 xs0 xs1 xs2).1 S256.size (by sl_kernel_rfl) y
theorem scoverB_1 (c : Dev nD) (t : Fin cfg0.N) (h0 : ¬t.val % 16 = 0) (h1 : ¬t.val % 16 = 15) (xs0 xs1 : Vec F S256 .f32) (xs2 : Vec F S256x256 .f32) (y : S256.Idx) :
    ∃ pc ∈ (caseB m c t h0 h1 xs0 xs1 xs2).2.1, y ∈ pc.1.set :=
  View.cover_of_tiledL (caseB m c t h0 h1 xs0 xs1 xs2).2.1 S256.size (by sl_kernel_rfl) y
theorem scoverB_2 (c : Dev nD) (t : Fin cfg0.N) (h0 : ¬t.val % 16 = 0) (h1 : ¬t.val % 16 = 15) (xs0 xs1 : Vec F S256 .f32) (xs2 : Vec F S256x256 .f32) (y : S256x256.Idx) :
    ∃ pc ∈ (caseB m c t h0 h1 xs0 xs1 xs2).2.2.1, y ∈ pc.1.set :=
  View.cover_of_tiledL (caseB m c t h0 h1 xs0 xs1 xs2).2.2.1 S256x256.size (by sl_kernel_rfl) y
theorem scoverC_0 (c : Dev nD) (t : Fin cfg0.N) (h0 : ¬t.val % 16 = 0) (h1 : t.val % 16 = 15) (xs0 xs1 : Vec F S256 .f32) (xs2 : Vec F S256x256 .f32) (y : S256.Idx) :
    ∃ pc ∈ (caseC m c t h0 h1 xs0 xs1 xs2).2.2.2.1, y ∈ pc.1.set :=
  View.cover_of_tiledL (caseC m c t h0 h1 xs0 xs1 xs2).2.2.2.1 S256.size (by sl_kernel_rfl) y
theorem scoverC_1 (c : Dev nD) (t : Fin cfg0.N) (h0 : ¬t.val % 16 = 0) (h1 : t.val % 16 = 15) (xs0 xs1 : Vec F S256 .f32) (xs2 : Vec F S256x256 .f32) (y : S256.Idx) :
    ∃ pc ∈ (caseC m c t h0 h1 xs0 xs1 xs2).2.2.2.2.1, y ∈ pc.1.set :=
  View.cover_of_tiledL (caseC m c t h0 h1 xs0 xs1 xs2).2.2.2.2.1 S256.size (by sl_kernel_rfl) y
theorem scoverC_2 (c : Dev nD) (t : Fin cfg0.N) (h0 : ¬t.val % 16 = 0) (h1 : t.val % 16 = 15) (xs0 xs1 : Vec F S256 .f32) (xs2 : Vec F S256x256 .f32) (y : S256x256.Idx) :
    ∃ pc ∈ (caseC m c t h0 h1 xs0 xs1 xs2).2.2.2.2.2.1, y ∈ pc.1.set :=
  View.cover_of_tiledL (caseC m c t h0 h1 xs0 xs1 xs2).2.2.2.2.2.1 S256x256.size (by sl_kernel_rfl) y
theorem coverC_3 (c : Dev nD) (t : Fin cfg0.N) (h0 : ¬t.val % 16 = 0) (h1 : t.val % 16 = 15) (xs0 xs1 : Vec F S256 .f32) (xs2 : Vec F S256x256 .f32) (y : S1x1x256.Idx) :
    ∃ pc ∈ (caseC m c t h0 h1 xs0 xs1 xs2).1, y ∈ pc.1.set :=
  View.cover_of_tiledL (caseC m c t h0 h1 xs0 xs1 xs2).1 S1x1x256.size (by sl_kernel_rfl) y
theorem coverC_4 (c : Dev nD) (t : Fin cfg0.N) (h0 : ¬t.val % 16 = 0) (h1 : t.val % 16 = 15) (xs0 xs1 : Vec F S256 .f32) (xs2 : Vec F S256x256 .f32) (y : S1x1x256.Idx) :
    ∃ pc ∈ (caseC m c t h0 h1 xs0 xs1 xs2).2.1, y ∈ pc.1.set :=
  View.cover_of_tiledL (caseC m c t h0 h1 xs0 xs1 xs2).2.1 S1x1x256.size (by sl_kernel_rfl) y
theorem coverC_5 (c : Dev nD) (t : Fin cfg0.N) (h0 : ¬t.val % 16 = 0) (h1 : t.val % 16 = 15) (xs0 xs1 : Vec F S256 .f32) (xs2 : Vec F S256x256 .f32) (y : S1x256x256.Idx) :
    ∃ pc ∈ (caseC m c t h0 h1 xs0 xs1 xs2).2.2.1, y ∈ pc.1.set :=
  View.cover_of_tiledL (caseC m c t h0 h1 xs0 xs1 xs2).2.2.1 S1x256x256.size (by sl_kernel_rfl) y

/-! ## What the buffers hold after each point -/

/-- By recursion on the point: the case its tile index selects, over what the point before left. -/
def outsAt0 (c : Dev nD) : (n : ℕ) → n < cfg0.N → Outs F
  | 0, hn => outsA m c ⟨0, hn⟩ rfl
  | n + 1, hn =>
    if h0 : (n + 1) % 16 = 0 then outsA m c ⟨n + 1, hn⟩ h0
    else if h1 : (n + 1) % 16 = 15 then outsC m c ⟨n + 1, hn⟩ h0 h1 (outsAt0 c n (Nat.lt_of_succ_lt hn))
    else outsB m c ⟨n + 1, hn⟩ h0 h1 (outsAt0 c n (Nat.lt_of_succ_lt hn))

theorem outsAt0_A (c : Dev nD) (t : Fin cfg0.N) (h0 : t.val % 16 = 0) :
    outsAt0 m c t.val t.isLt = outsA m c t h0 := by
  obtain ⟨n, hn⟩ := t
  cases n with
  | zero => rfl
  | succ n => exact dif_pos h0

theorem outsAt0_B (c : Dev nD) (t : Fin cfg0.N) (h0 : ¬t.val % 16 = 0) (h1 : ¬t.val % 16 = 15) :
    outsAt0 m c t.val t.isLt = outsB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 16 = 0) (h1 : t.val % 16 = 15) :
    outsAt0 m c t.val t.isLt = outsC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The accumulators at named contents, and the generator register at some state. -/
def accs (c : Dev nD) (p : Outs F) : sProp 𝕄 :=
  iprop(iprop(owns (c : Thread nD τ) scM0_0 fullShare p.s0 ∗ owns (c : Thread nD τ) scM0_1 fullShare p.s1 ∗ owns (c : Thread nD τ) scM0_2 fullShare p.s2) ∗ (∃ r, prngReg c r))

/-- The region invariant before position `n`: before the first point the accumulators hold anything; afterwards what the
    point before left. -/
def PhiS (c : Dev nD) : (n : ℕ) → n ≤ cfg0.N → sProp 𝕄
  | 0, _ => Pipeline.ΦA spec0 c
  | n + 1, hn => accs c (outsAt0 m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = accs c (outsAt0 m c n hn) := rfl
theorem PhiS_pos (c : Dev nD) (n : ℕ) (h : n ≤ cfg0.N) (hz : n ≠ 0) :
    PhiS m c n h = accs c (outsAt0 m c (n - 1) (by omega)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).o3
    | ⟨4, _⟩ => (outsAt0 m c t.val t.isLt).o4
    | ⟨5, _⟩ => (outsAt0 m c t.val t.isLt).o5
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).o3 := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any point: the inputs' memrefs hold their blocks; the tile index says which case the point is in; the
    invariant hands the body the accumulators at what the point before left (at anything before the first point) and
    takes them back at this point's contents; an idle output is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · have h1 : ¬t.val % 16 = 15 := by omega
    have hc1 : ¬cond0_1 (grid0.coords t) := fun h => h1 ((hcond0_1 t).mp h)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [Dat.leavesExact_idle (dats m 0 c) 3 t (idleAt0_3 t hc1) (noFlush0_3 t hc1)]
    rw [Dat.leavesExact_idle (dats m 0 c) 4 t (idleAt0_4 t hc1) (noFlush0_4 t hc1)]
    rw [Dat.leavesExact_idle (dats m 0 c) 5 t (idleAt0_5 t hc1) (noFlush0_5 t hc1)]
    rw [outsAt0_A m c t h0]
    unfold accs outsA; dsimp only
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((caseA m c t h0).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverA_0 m c t h0)
          isplitl [HS1]
          · unfold owns; iexists _; isplitr
            swap; · iexact HS1
            ipureintro; exact View.read_writes_of_cover _ _ _ _ _ (scoverA_1 m c t h0)
          unfold owns; iexists _; isplitr
          swap; · iexact HS2
          ipureintro; exact View.read_writes_of_cover _ _ _ _ _ (scoverA_2 m c t h0)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [PhiS_castSucc m c t, PhiS_pos m c _ _ hz]
      unfold accs
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((caseA m c t h0).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverA_0 m c t h0)
          isplitl [HS1]
          · unfold owns; iexists _; isplitr
            swap; · iexact HS1
            ipureintro; exact View.read_writes_of_cover _ _ _ _ _ (scoverA_1 m c t h0)
          unfold owns; iexists _; isplitr
          swap; · iexact HS2
          ipureintro; exact View.read_writes_of_cover _ _ _ _ _ (scoverA_2 m c t h0)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hz : t.val ≠ 0 := fun e => h0 (by rw [e])
    by_cases h1 : t.val % 16 = 15
    · have hc1 : cond0_1 (grid0.coords t) := (hcond0_1 t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t hc1], after0_3]
      rw [show (dats m 0 c).leavesExact 4 t = owns (c : Thread nD τ) (ms0_4 t) fullShare ((dats m 0 c).after 4 t) from by
        unfold Dat.leavesExact; rw [liveAt0_4 t hc1], after0_4]
      rw [show (dats m 0 c).leavesExact 5 t = owns (c : Thread nD τ) (ms0_5 t) fullShare ((dats m 0 c).after 5 t) from by
        unfold Dat.leavesExact; rw [liveAt0_5 t hc1], after0_5]
      rw [outsAt0_C m c t h0 h1]
      unfold accs outsC; dsimp only
      rw [PhiS_castSucc m c t, PhiS_pos m c _ _ hz]
      unfold accs
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((caseC m c t h0 h1 _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%e3, H3⟩, ⟨%e4, H4⟩, ⟨%e5, H5⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverC_0 m c t h0 h1 _ _ _)
          isplitl [HS1]
          · unfold owns; iexists _; isplitr
            swap; · iexact HS1
            ipureintro; exact View.read_writes_of_cover _ _ _ _ _ (scoverC_1 m c t h0 h1 _ _ _)
          unfold owns; iexists _; isplitr
          swap; · iexact HS2
          ipureintro; exact View.read_writes_of_cover _ _ _ _ _ (scoverC_2 m c t h0 h1 _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_3 m c t h0 h1 _ _ _)
      isplitl [H4]
      · unfold owns; iexists _; isplitr
        swap; · iexact H4
        ipureintro; exact View.read_writes_of_cover _ _ _ _ _ (coverC_4 m c t h0 h1 _ _ _)
      unfold owns; iexists _; isplitr
      swap; · iexact H5
      ipureintro; exact View.read_writes_of_cover _ _ _ _ _ (coverC_5 m c t h0 h1 _ _ _)
    · have hc1 : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t hc1) (noFlush0_3 t hc1)]
      rw [Dat.leavesExact_idle (dats m 0 c) 4 t (idleAt0_4 t hc1) (noFlush0_4 t hc1)]
      rw [Dat.leavesExact_idle (dats m 0 c) 5 t (idleAt0_5 t hc1) (noFlush0_5 t hc1)]
      rw [outsAt0_B m c t h0 h1]
      unfold accs outsB; dsimp only
      rw [PhiS_castSucc m c t, PhiS_pos m c _ _ hz]
      unfold accs
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((caseB m c t h0 h1 _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverB_0 m c t h0 h1 _ _ _)
          isplitl [HS1]
          · unfold owns; iexists _; isplitr
            swap; · iexact HS1
            ipureintro; exact View.read_writes_of_cover _ _ _ _ _ (scoverB_1 m c t h0 h1 _ _ _)
          unfold owns; iexists _; isplitr
          swap; · iexact HS2
          ipureintro; exact View.read_writes_of_cover _ _ _ _ _ (scoverB_2 m c t h0 h1 _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  unfold accs
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates; at the end every window's array holds what the library computes
    from the proof data, and every other unscoped buffer what the later lines leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- The frame: @main runs to the end and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Region

end
-- ==== Proof.IdealPieces.lean ====
/-
  What the body leaves, read as values. At a middle tile each accumulator ends at its one store's payload: the old
  contents plus this tile's column sums (or joint products). At a first tile the zero fill is stored first and read back,
  so the accumulator ends at zero plus the tile's sums. At a last tile the accumulators end as at a middle tile and each
  output holds the re-shaped copy of its accumulator's new contents.
-/
import proofs.«116807_j66838281060468_1_alg».proof.Proof.IdealFrame
import Idealize.ShloMosaic.Lib.Pipeline.Value

set_option maxRecDepth 16384
set_option maxHeartbeats 40000000

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle tile -/

theorem sB0 (c : Dev nD) (t : Fin cfg0.N) (h0 : ¬t.val % 16 = 0) (h1 : ¬t.val % 16 = 15) (p : Outs F) :
    (outsB m c t h0 h1 p).s0 = k0_pay1 (k0_pay12 (iblk m c 0 t) (iblk m c 2 t) p.s0) := by
  have e0 : ∀ (x : Vec F S256 .f32), View.read (Elt F) (View.whole cc0_scratch0) ((Memref.isWhole_whole cc0_scratch0).unread x) = x := fun x => (Memref.isWhole_whole cc0_scratch0).read_unread x
  have e1 : ∀ (x : Vec F S256 .f32), View.read (Elt F) (View.whole cc0_scratch1) ((Memref.isWhole_whole cc0_scratch1).unread x) = x := fun x => (Memref.isWhole_whole cc0_scratch1).read_unread x
  have e2 : ∀ (x : Vec F S256x256 .f32), View.read (Elt F) (View.whole cc0_scratch2) ((Memref.isWhole_whole cc0_scratch2).unread x) = x := fun x => (Memref.isWhole_whole cc0_scratch2).read_unread x
  unfold outsB; dsimp only
  rw [View.read_writes_eq_canon _ _ _ (scoverB_0 m c t h0 h1 _ _ _)]
  unfold caseB kernelRun0_B
  dsimp only
  sl_unfold_words
  rw [View.canon_unit_zero hz1]
  simp only [View.readAt_eq_ld, (hs0_0 t).read_unread, (hs0_1 t).read_unread, (hs0_2 t).read_unread, View.ld_unit_zero (S := S256) hz1, View.ld_unit_zero (S := S256x256) hz2, View.ld_unit_zero (S := S1x1x4096) hz3, e0, e1, e2]

theorem sB1 (c : Dev nD) (t : Fin cfg0.N) (h0 : ¬t.val % 16 = 0) (h1 : ¬t.val % 16 = 15) (p : Outs F) :
    (outsB m c t h0 h1 p).s1 = k0_pay2 (k0_pay11 (iblk m c 1 t) (iblk m c 2 t)) p.s1 := by
  have e0 : ∀ (x : Vec F S256 .f32), View.read (Elt F) (View.whole cc0_scratch0) ((Memref.isWhole_whole cc0_scratch0).unread x) = x := fun x => (Memref.isWhole_whole cc0_scratch0).read_unread x
  have e1 : ∀ (x : Vec F S256 .f32), View.read (Elt F) (View.whole cc0_scratch1) ((Memref.isWhole_whole cc0_scratch1).unread x) = x := fun x => (Memref.isWhole_whole cc0_scratch1).read_unread x
  have e2 : ∀ (x : Vec F S256x256 .f32), View.read (Elt F) (View.whole cc0_scratch2) ((Memref.isWhole_whole cc0_scratch2).unread x) = x := fun x => (Memref.isWhole_whole cc0_scratch2).read_unread x
  unfold outsB; dsimp only
  rw [View.read_writes_eq_canon _ _ _ (scoverB_1 m c t h0 h1 _ _ _)]
  unfold caseB kernelRun0_B
  dsimp only
  sl_unfold_words
  rw [View.canon_unit_zero hz1]
  simp only [View.readAt_eq_ld, (hs0_0 t).read_unread, (hs0_1 t).read_unread, (hs0_2 t).read_unread, View.ld_unit_zero (S := S256) hz1, View.ld_unit_zero (S := S256x256) hz2, View.ld_unit_zero (S := S1x1x4096) hz3, e0, e1, e2]

theorem sB2 (c : Dev nD) (t : Fin cfg0.N) (h0 : ¬t.val % 16 = 0) (h1 : ¬t.val % 16 = 15) (p : Outs F) :
    (outsB m c t h0 h1 p).s2 = k0_pay3 (k0_pay10 (iblk m c 0 t) (iblk m c 2 t)) (k0_pay11 (iblk m c 1 t) (iblk m c 2 t)) p.s2 := by
  have e0 : ∀ (x : Vec F S256 .f32), View.read (Elt F) (View.whole cc0_scratch0) ((Memref.isWhole_whole cc0_scratch0).unread x) = x := fun x => (Memref.isWhole_whole cc0_scratch0).read_unread x
  have e1 : ∀ (x : Vec F S256 .f32), View.read (Elt F) (View.whole cc0_scratch1) ((Memref.isWhole_whole cc0_scratch1).unread x) = x := fun x => (Memref.isWhole_whole cc0_scratch1).read_unread x
  have e2 : ∀ (x : Vec F S256x256 .f32), View.read (Elt F) (View.whole cc0_scratch2) ((Memref.isWhole_whole cc0_scratch2).unread x) = x := fun x => (Memref.isWhole_whole cc0_scratch2).read_unread x
  unfold outsB; dsimp only
  rw [View.read_writes_eq_canon _ _ _ (scoverB_2 m c t h0 h1 _ _ _)]
  unfold caseB kernelRun0_B
  dsimp only
  sl_unfold_words
  rw [View.canon_unit_zero hz2]
  simp only [View.readAt_eq_ld, (hs0_0 t).read_unread, (hs0_1 t).read_unread, (hs0_2 t).read_unread, View.ld_unit_zero (S := S256) hz1, View.ld_unit_zero (S := S256x256) hz2, View.ld_unit_zero (S := S1x1x4096) hz3, e0, e1, e2]

/-! ## A last tile -/

theorem sC0 (c : Dev nD) (t : Fin cfg0.N) (h0 : ¬t.val % 16 = 0) (h1 : t.val % 16 = 15) (p : Outs F) :
    (outsC m c t h0 h1 p).s0 = k0_pay1 (k0_pay12 (iblk m c 0 t) (iblk m c 2 t) p.s0) := by
  have e0 : ∀ (x : Vec F S256 .f32), View.read (Elt F) (View.whole cc0_scratch0) ((Memref.isWhole_whole cc0_scratch0).unread x) = x := fun x => (Memref.isWhole_whole cc0_scratch0).read_unread x
  have e1 : ∀ (x : Vec F S256 .f32), View.read (Elt F) (View.whole cc0_scratch1) ((Memref.isWhole_whole cc0_scratch1).unread x) = x := fun x => (Memref.isWhole_whole cc0_scratch1).read_unread x
  have e2 : ∀ (x : Vec F S256x256 .f32), View.read (Elt F) (View.whole cc0_scratch2) ((Memref.isWhole_whole cc0_scratch2).unread x) = x := fun x => (Memref.isWhole_whole cc0_scratch2).read_unread x
  unfold outsC; dsimp only
  rw [View.read_writes_eq_canon _ _ _ (scoverC_0 m c t h0 h1 _ _ _)]
  unfold caseC kernelRun0_C
  dsimp only
  sl_unfold_words
  rw [View.canon_unit_zero hz1]
  simp only [View.readAt_eq_ld, (hs0_0 t).read_unread, (hs0_1 t).read_unread, (hs0_2 t).read_unread, View.ld_unit_zero (S := S256) hz1, View.ld_unit_zero (S := S256x256) hz2, View.ld_unit_zero (S := S1x1x4096) hz3, e0, e1, e2]

theorem sC1 (c : Dev nD) (t : Fin cfg0.N) (h0 : ¬t.val % 16 = 0) (h1 : t.val % 16 = 15) (p : Outs F) :
    (outsC m c t h0 h1 p).s1 = k0_pay2 (k0_pay11 (iblk m c 1 t) (iblk m c 2 t)) p.s1 := by
  have e0 : ∀ (x : Vec F S256 .f32), View.read (Elt F) (View.whole cc0_scratch0) ((Memref.isWhole_whole cc0_scratch0).unread x) = x := fun x => (Memref.isWhole_whole cc0_scratch0).read_unread x
  have e1 : ∀ (x : Vec F S256 .f32), View.read (Elt F) (View.whole cc0_scratch1) ((Memref.isWhole_whole cc0_scratch1).unread x) = x := fun x => (Memref.isWhole_whole cc0_scratch1).read_unread x
  have e2 : ∀ (x : Vec F S256x256 .f32), View.read (Elt F) (View.whole cc0_scratch2) ((Memref.isWhole_whole cc0_scratch2).unread x) = x := fun x => (Memref.isWhole_whole cc0_scratch2).read_unread x
  unfold outsC; dsimp only
  rw [View.read_writes_eq_canon _ _ _ (scoverC_1 m c t h0 h1 _ _ _)]
  unfold caseC kernelRun0_C
  dsimp only
  sl_unfold_words
  rw [View.canon_unit_zero hz1]
  simp only [View.readAt_eq_ld, (hs0_0 t).read_unread, (hs0_1 t).read_unread, (hs0_2 t).read_unread, View.ld_unit_zero (S := S256) hz1, View.ld_unit_zero (S := S256x256) hz2, View.ld_unit_zero (S := S1x1x4096) hz3, e0, e1, e2]

theorem sC2 (c : Dev nD) (t : Fin cfg0.N) (h0 : ¬t.val % 16 = 0) (h1 : t.val % 16 = 15) (p : Outs F) :
    (outsC m c t h0 h1 p).s2 = k0_pay3 (k0_pay10 (iblk m c 0 t) (iblk m c 2 t)) (k0_pay11 (iblk m c 1 t) (iblk m c 2 t)) p.s2 := by
  have e0 : ∀ (x : Vec F S256 .f32), View.read (Elt F) (View.whole cc0_scratch0) ((Memref.isWhole_whole cc0_scratch0).unread x) = x := fun x => (Memref.isWhole_whole cc0_scratch0).read_unread x
  have e1 : ∀ (x : Vec F S256 .f32), View.read (Elt F) (View.whole cc0_scratch1) ((Memref.isWhole_whole cc0_scratch1).unread x) = x := fun x => (Memref.isWhole_whole cc0_scratch1).read_unread x
  have e2 : ∀ (x : Vec F S256x256 .f32), View.read (Elt F) (View.whole cc0_scratch2) ((Memref.isWhole_whole cc0_scratch2).unread x) = x := fun x => (Memref.isWhole_whole cc0_scratch2).read_unread x
  unfold outsC; dsimp only
  rw [View.read_writes_eq_canon _ _ _ (scoverC_2 m c t h0 h1 _ _ _)]
  unfold caseC kernelRun0_C
  dsimp only
  sl_unfold_words
  rw [View.canon_unit_zero hz2]
  simp only [View.readAt_eq_ld, (hs0_0 t).read_unread, (hs0_1 t).read_unread, (hs0_2 t).read_unread, View.ld_unit_zero (S := S256) hz1, View.ld_unit_zero (S := S256x256) hz2, View.ld_unit_zero (S := S1x1x4096) hz3, e0, e1, e2]

theorem oC3 (c : Dev nD) (t : Fin cfg0.N) (h0 : ¬t.val % 16 = 0) (h1 : t.val % 16 = 15) (p : Outs F) :
    (outsC m c t h0 h1 p).o3 = k0_pay4 (outsC m c t h0 h1 p).s0 := by
  rw [sC0]
  have e0 : ∀ (x : Vec F S256 .f32), View.read (Elt F) (View.whole cc0_scratch0) ((Memref.isWhole_whole cc0_scratch0).unread x) = x := fun x => (Memref.isWhole_whole cc0_scratch0).read_unread x
  have e1 : ∀ (x : Vec F S256 .f32), View.read (Elt F) (View.whole cc0_scratch1) ((Memref.isWhole_whole cc0_scratch1).unread x) = x := fun x => (Memref.isWhole_whole cc0_scratch1).read_unread x
  have e2 : ∀ (x : Vec F S256x256 .f32), View.read (Elt F) (View.whole cc0_scratch2) ((Memref.isWhole_whole cc0_scratch2).unread x) = x := fun x => (Memref.isWhole_whole cc0_scratch2).read_unread x
  unfold outsC; dsimp only
  rw [View.read_writes_eq_canon _ _ _ (coverC_3 m c t h0 h1 _ _ _)]
  unfold caseC kernelRun0_C
  dsimp only
  sl_unfold_words
  rw [View.canon_unit_zero hz3]
  simp only [View.readAt_eq_ld, (hs0_0 t).read_unread, (hs0_1 t).read_unread, (hs0_2 t).read_unread, View.ld_unit_zero (S := S256) hz1, View.ld_unit_zero (S := S256x256) hz2, View.ld_unit_zero (S := S1x1x4096) hz3, e0, e1, e2]
  rw [View.readCov_unit_zero (S := S256) _ hz1]

theorem oC4 (c : Dev nD) (t : Fin cfg0.N) (h0 : ¬t.val % 16 = 0) (h1 : t.val % 16 = 15) (p : Outs F) :
    (outsC m c t h0 h1 p).o4 = k0_pay5 (outsC m c t h0 h1 p).s1 := by
  rw [sC1]
  have e0 : ∀ (x : Vec F S256 .f32), View.read (Elt F) (View.whole cc0_scratch0) ((Memref.isWhole_whole cc0_scratch0).unread x) = x := fun x => (Memref.isWhole_whole cc0_scratch0).read_unread x
  have e1 : ∀ (x : Vec F S256 .f32), View.read (Elt F) (View.whole cc0_scratch1) ((Memref.isWhole_whole cc0_scratch1).unread x) = x := fun x => (Memref.isWhole_whole cc0_scratch1).read_unread x
  have e2 : ∀ (x : Vec F S256x256 .f32), View.read (Elt F) (View.whole cc0_scratch2) ((Memref.isWhole_whole cc0_scratch2).unread x) = x := fun x => (Memref.isWhole_whole cc0_scratch2).read_unread x
  unfold outsC; dsimp only
  rw [View.read_writes_eq_canon _ _ _ (coverC_4 m c t h0 h1 _ _ _)]
  unfold caseC kernelRun0_C
  dsimp only
  sl_unfold_words
  rw [View.canon_unit_zero hz3]
  simp only [View.readAt_eq_ld, (hs0_0 t).read_unread, (hs0_1 t).read_unread, (hs0_2 t).read_unread, View.ld_unit_zero (S := S256) hz1, View.ld_unit_zero (S := S256x256) hz2, View.ld_unit_zero (S := S1x1x4096) hz3, e0, e1, e2]
  rw [View.readCov_unit_zero (S := S256) _ hz1]

theorem oC5 (c : Dev nD) (t : Fin cfg0.N) (h0 : ¬t.val % 16 = 0) (h1 : t.val % 16 = 15) (p : Outs F) :
    (outsC m c t h0 h1 p).o5 = k0_pay6 (outsC m c t h0 h1 p).s2 := by
  rw [sC2]
  have e0 : ∀ (x : Vec F S256 .f32), View.read (Elt F) (View.whole cc0_scratch0) ((Memref.isWhole_whole cc0_scratch0).unread x) = x := fun x => (Memref.isWhole_whole cc0_scratch0).read_unread x
  have e1 : ∀ (x : Vec F S256 .f32), View.read (Elt F) (View.whole cc0_scratch1) ((Memref.isWhole_whole cc0_scratch1).unread x) = x := fun x => (Memref.isWhole_whole cc0_scratch1).read_unread x
  have e2 : ∀ (x : Vec F S256x256 .f32), View.read (Elt F) (View.whole cc0_scratch2) ((Memref.isWhole_whole cc0_scratch2).unread x) = x := fun x => (Memref.isWhole_whole cc0_scratch2).read_unread x
  unfold outsC; dsimp only
  rw [View.read_writes_eq_canon _ _ _ (coverC_5 m c t h0 h1 _ _ _)]
  unfold caseC kernelRun0_C
  dsimp only
  sl_unfold_words
  rw [View.canon_unit_zero hz3]
  simp only [View.readAt_eq_ld, (hs0_0 t).read_unread, (hs0_1 t).read_unread, (hs0_2 t).read_unread, View.ld_unit_zero (S := S256) hz1, View.ld_unit_zero (S := S256x256) hz2, View.ld_unit_zero (S := S1x1x4096) hz3, e0, e1, e2]
  rw [View.readCov_unit_zero (S := S256x256) _ hz2]

/-! ## A first tile -/

theorem sA0 (c : Dev nD) (t : Fin cfg0.N) (h0 : t.val % 16 = 0) :
    (outsA m c t h0).s0 = k0_pay1 (k0_pay12 (iblk m c 0 t) (iblk m c 2 t) (k0_pay7 (F := F))) := by
  unfold outsA; dsimp only
  rw [View.read_writes_eq_canon _ _ _ (scoverA_0 m c t h0)]
  unfold caseA kernelRun0_A
  dsimp only
  sl_unfold_words
  rw [View.canon_cons_unit_zero (S := S256) hz1, View.readCov_unit_zero (S := S256) _ hz1]
  simp only [View.readAt_eq_ld, (hs0_0 t).read_unread, (hs0_1 t).read_unread, (hs0_2 t).read_unread, View.ld_unit_zero (S := S256) hz1, View.ld_unit_zero (S := S256x256) hz2, View.ld_unit_zero (S := S1x1x4096) hz3]

theorem sA1 (c : Dev nD) (t : Fin cfg0.N) (h0 : t.val % 16 = 0) :
    (outsA m c t h0).s1 = k0_pay2 (k0_pay11 (iblk m c 1 t) (iblk m c 2 t)) (k0_pay8 (F := F)) := by
  unfold outsA; dsimp only
  rw [View.read_writes_eq_canon _ _ _ (scoverA_1 m c t h0)]
  unfold caseA kernelRun0_A
  dsimp only
  sl_unfold_words
  rw [View.canon_cons_unit_zero (S := S256) hz1, View.readCov_unit_zero (S := S256) _ hz1]
  simp only [View.readAt_eq_ld, (hs0_0 t).read_unread, (hs0_1 t).read_unread, (hs0_2 t).read_unread, View.ld_unit_zero (S := S256) hz1, View.ld_unit_zero (S := S256x256) hz2, View.ld_unit_zero (S := S1x1x4096) hz3]

theorem sA2 (c : Dev nD) (t : Fin cfg0.N) (h0 : t.val % 16 = 0) :
    (outsA m c t h0).s2 = k0_pay3 (k0_pay10 (iblk m c 0 t) (iblk m c 2 t)) (k0_pay11 (iblk m c 1 t) (iblk m c 2 t)) (k0_pay9 (F := F)) := by
  unfold outsA; dsimp only
  rw [View.read_writes_eq_canon _ _ _ (scoverA_2 m c t h0)]
  unfold caseA kernelRun0_A
  dsimp only
  sl_unfold_words
  rw [View.canon_cons_unit_zero (S := S256x256) hz2, View.readCov_unit_zero (S := S256x256) _ hz2]
  simp only [View.readAt_eq_ld, (hs0_0 t).read_unread, (hs0_1 t).read_unread, (hs0_2 t).read_unread, View.ld_unit_zero (S := S256) hz1, View.ld_unit_zero (S := S256x256) hz2, View.ld_unit_zero (S := S1x1x4096) hz3]

end Cert.KernelIdeal.Region

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.LibPrefixSums.lean ====
/-
  Sums of an initial stretch of finitely many terms. For terms f 0, …, f (N−1) of a commutative additive monoid,
  upto f a  is the sum of the terms whose index is at most a — written as a sum over all indices with the later terms
  replaced by zero, so that no index arithmetic on the index type is needed. It starts at the first term, grows by one
  term at a time, and is the whole sum once a reaches N − 1. Nothing but commutative addition is used, so the statements
  hold on the extended reals without any finiteness.
-/
import Mathlib

noncomputable section

namespace PrefixSums

open Finset

variable {M : Type*} [AddCommMonoid M] {N : ℕ}

/-- The sum of the terms of index at most `a`. -/
def upto (f : Fin N → M) (a : ℕ) : M := ∑ j : Fin N, if j.val ≤ a then f j else 0

/-- One term alone, as a sum over all indices. -/
theorem single (f : Fin N → M) (b : ℕ) (hb : b < N) : (∑ j : Fin N, if j.val = b then f j else 0) = f ⟨b, hb⟩ := by
  rw [Finset.sum_eq_single (⟨b, hb⟩ : Fin N)]
  · exact if_pos rfl
  · intro j _ hj
    exact if_neg fun h => hj (Fin.ext h)
  · intro h; exact absurd (Finset.mem_univ _) h

/-- Up to index 0 there is the first term only. -/
theorem upto_zero (f : Fin N → M) (hN : 0 < N) : upto f 0 = f ⟨0, hN⟩ := by
  unfold upto
  rw [← single f 0 hN]
  refine Finset.sum_congr rfl fun j _ => ?_
  by_cases h : j.val = 0
  · rw [if_pos (by omega), if_pos h]
  · rw [if_neg (by omega), if_neg h]

/-- One more term. -/
theorem upto_succ (f : Fin N → M) (a : ℕ) (h : a + 1 < N) : upto f (a + 1) = upto f a + f ⟨a + 1, h⟩ := by
  unfold upto
  rw [← single f (a + 1) h, ← Finset.sum_add_distrib]
  refine Finset.sum_congr rfl fun j _ => ?_
  by_cases h1 : j.val ≤ a
  · rw [if_pos (by omega), if_pos h1, if_neg (by omega), add_zero]
  · by_cases h2 : j.val = a + 1
    · rw [if_pos (by omega), if_neg h1, if_pos h2, zero_add]
    · rw [if_neg (by omega), if_neg h1, if_neg h2, add_zero]

/-- From the last index on it is the whole sum. -/
theorem upto_all (f : Fin N → M) (a : ℕ) (h : N ≤ a + 1) : upto f a = ∑ j, f j := by
  unfold upto
  exact Finset.sum_congr rfl fun j _ => if_pos (by have := j.isLt; omega)

end PrefixSums

end
-- ==== Proof.ParzenLaw.lean ====
/-
  The two facts about numbers that join the kernel and the reference.
  (1) One Gaussian weight. The reference divides the residual r = 255·x − bin by σ, where σ is the f32 nearest to 0.1,
  that is 13421773 / 2^27, squares and halves: exp(−½ · ((r/σ)·(r/σ))). The kernel multiplies r by the reciprocal,
  read at its exact value 2^27 / 13421773, and forms ((−½ · s) · s) with s = r · (1/σ). Division by a nonzero real is
  multiplication by its inverse on every extended real, and multiplication of extended reals is associative, so the
  two weights are one number for every extended-real r, infinite ones included.
  (2) Sums. A sum over the 65536 pixels of a row is the sum over its 16 tiles of the sums over the 4096 pixels of a
  tile; only commutativity and associativity of addition are used, so no finiteness is needed.
-/
import Mathlib
import Idealize.ShloMosaic.PureOps.Ideal
import Idealize.ShloMosaic.Lib.ValueIdx
import proofs.«116807_j66838281060468_1_alg».proof.Proof.LibBlockSums
import proofs.«116807_j66838281060468_1_alg».proof.Proof.LibPrefixSums

noncomputable section

namespace Cert.Parzen

open Idealize.ShloMosaic

/-- The f32 word of 0.1 is the real 13421773 / 2^27. -/
theorem ofBits_sigma : Ideal.ofBits .f32 0x3DCCCCCD#32 = ((13421773 / 134217728 : ℝ) : EReal) := by
  simp [Ideal.ofBits, Ideal.ieee, -EReal.coe_mul]; norm_num

/-- The f32 word of +0.0 is zero. -/
theorem ofBits_zero : Ideal.ofBits .f32 0x00000000#32 = 0 := by
  simp [Ideal.ofBits, Ideal.ieee]

/-- Dividing by σ is multiplying by 2^27 / 13421773, on every extended real. -/
theorem div_sigma (a : EReal) :
    Ideal.div a (Ideal.ofBits .f32 0x3DCCCCCD#32) = a * ((134217728 / 13421773 : ℝ) : EReal) := by
  rw [ofBits_sigma, Ideal.div_coe (by norm_num)]
  congr 2; norm_num

/-- The exponent of one weight, in the kernel's order of products and in the reference's. -/
theorem exponent_eq (h r : EReal) :
    (h * (r * ((134217728 / 13421773 : ℝ) : EReal))) * (r * ((134217728 / 13421773 : ℝ) : EReal))
      = h * (Ideal.div r (Ideal.ofBits .f32 0x3DCCCCCD#32) * Ideal.div r (Ideal.ofBits .f32 0x3DCCCCCD#32)) := by
  rw [div_sigma, mul_assoc]

/-- The reciprocal of σ at its exact value. -/
abbrev kr : EReal := ((134217728 / 13421773 : ℝ) : EReal)

/-- One Gaussian weight, in the kernel's order of operations: a is the pixel, bn the bin centre. -/
def wgt (a bn : EReal) : EReal :=
  Ideal.exp ((Ideal.ofBits .f32 0xBF000000#32 * ((a * Ideal.ofBits .f32 0x437F0000#32 - bn) * kr))
    * ((a * Ideal.ofBits .f32 0x437F0000#32 - bn) * kr))

/-- The same weight in the reference's order of operations. -/
theorem wgt_ref (a bn : EReal) :
    Ideal.exp (Ideal.ofBits .f32 0xBF000000#32
      * (Ideal.div (a * Ideal.ofBits .f32 0x437F0000#32 - bn) (Ideal.ofBits .f32 0x3DCCCCCD#32)
        * Ideal.div (a * Ideal.ofBits .f32 0x437F0000#32 - bn) (Ideal.ofBits .f32 0x3DCCCCCD#32))) = wgt a bn := by
  unfold wgt; rw [exponent_eq]

/-- Pixel p of row b of an [8,1,256,256] image, the 65536 pixels of a row counted row-major. -/
def pixel (x : (⟨4, ![8, 1, 256, 256]⟩ : Shape).Idx → EReal) (b : Fin 8) (p : Fin 65536) : EReal :=
  x (ValueIdx.ix4 b (0 : Fin 1) (⟨p.val / 256, by have := p.isLt; omega⟩ : Fin 256) (⟨p.val % 256, by omega⟩ : Fin 256))

/-- The column sum of the weights of image x over row b at bin j. -/
def colSum (x : (⟨4, ![8, 1, 256, 256]⟩ : Shape).Idx → EReal) (bins : (⟨1, ![256]⟩ : Shape).Idx → EReal) (b : Fin 8) (j : Fin 256) : EReal :=
  ∑ p : Fin 65536, wgt (pixel x b p) (bins (ValueIdx.ix1 j))

/-- The joint product of the weights of images x and y over row b at bins (a, a'). -/
def jointSum (x y : (⟨4, ![8, 1, 256, 256]⟩ : Shape).Idx → EReal) (bins : (⟨1, ![256]⟩ : Shape).Idx → EReal) (b : Fin 8) (a a' : Fin 256) : EReal :=
  ∑ p : Fin 65536, wgt (pixel x b p) (bins (ValueIdx.ix1 a)) * wgt (pixel y b p) (bins (ValueIdx.ix1 a'))

/-- A row's 65536 pixels as 16 tiles of 4096. -/
def pix (l : Fin 16) (r : Fin 4096) : Fin 65536 := ⟨l.val * 4096 + r.val, by have := l.isLt; have := r.isLt; omega⟩

theorem sum_tiles (f : Fin 65536 → EReal) : ∑ p, f p = ∑ l : Fin 16, ∑ r : Fin 4096, f (pix l r) :=
  BlockSums.sum_blocks (m := 16) (n := 4096) (by norm_num) pix (fun _ _ => rfl) f

end Cert.Parzen

end
-- ==== Proof.IdealTile.lean ====
/-
  One tile of the kernel's arithmetic, read at an index on the extended reals. A tile holds 4096 pixels of one row of x
  and of y, and the 256 bin centres. For pixel r and bin j the weight is exp((−½·s)·s) with s = (255·x_r − bin_j)·(1/σ);
  the tile adds to accumulator 0 the column sums Σ_r w^x(r, j), to accumulator 1 the column sums of the y weights, and
  to accumulator 2 the joint products Σ_r w^x(r, a)·w^y(r, b) (the matrix product contracts the pixel axis of both
  factors; the narrowing to bf16 before it is the identity on exact values).
-/
import proofs.«116807_j66838281060468_1_alg».proof.Proof.Gen.KernelIdeal.Skeleton
import proofs.«116807_j66838281060468_1_alg».proof.Proof.ParzenLaw
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.Tile

open Cert.KernelIdeal Cert.KernelIdeal.Gen
open Idealize.ShloMosaic Idealize.ShloMosaic.ValueIdx
open Cert.Parzen (wgt kr)

theorem named_sigma : Named.named (F := Ideal) κ "inv_sigma" (φ := .f32) 0x41200000#32 = kr :=
  IdealRules.named_const.ideal_named_scalar _ _ _ _ rfl

/-- The pixels kept as a column and copied along the bins: entry (r, j) is pixel r. -/
theorem col_apply (v : FVec Ideal S4096 .f32) (h1 : S4096.ShapeCasts S4096x1) (h2 : S4096x1.Broadcasts S4096x256)
    (r : Fin 4096) (j : Fin 256) :
    broadcastTo S4096x256 (shapeCast S4096x1 v h1) h2 (ix2 r j) = v (ix1 r) := by
  rw [broadcastTo_apply _ _ (ix2 r j) (ix2 r (0 : Fin 1)) (fun a => by
    match a with
    | ⟨0, _⟩ => show r.val = if (4096 : Nat) = 1 then 0 else r.val; rw [if_neg (by decide)]
    | ⟨1, _⟩ => show (0 : Nat) = if (1 : Nat) = 1 then 0 else j.val; rw [if_pos rfl])]
  exact shapeCast_apply _ _ (ix2 r (0 : Fin 1)) (ix1 r) (by
    rw [Shape.rowMajor_val_one, Shape.rowMajor_val_two]; show r.val = r.val * 1 + 0; omega)

/-- The bins kept as a row and copied along the pixels: entry (r, j) is bin j. -/
theorem row_apply (v : FVec Ideal S256 .f32) (h1 : S256.ShapeCasts S1x256) (h2 : S1x256.Broadcasts S4096x256)
    (r : Fin 4096) (j : Fin 256) :
    broadcastTo S4096x256 (shapeCast S1x256 v h1) h2 (ix2 r j) = v (ix1 j) := by
  rw [broadcastTo_apply _ _ (ix2 r j) (ix2 (0 : Fin 1) j) (fun a => by
    match a with
    | ⟨0, _⟩ => show (0 : Nat) = if (1 : Nat) = 1 then 0 else r.val; rw [if_pos rfl]
    | ⟨1, _⟩ => show j.val = if (256 : Nat) = 1 then 0 else j.val; rw [if_neg (by decide)])]
  exact shapeCast_apply _ _ (ix2 (0 : Fin 1) j) (ix1 j) (by
    rw [Shape.rowMajor_val_one, Shape.rowMajor_val_two]; show j.val = 0 * 256 + j.val; omega)

/-- A [1,1,4096] block read as a vector. -/
theorem lane_apply (x : Vec Ideal S1x1x4096 .f32) (h : S1x1x4096.ShapeCasts S4096) (r : Fin 4096) :
    shapeCast S4096 x h (ix1 r) = x (ix3 (0 : Fin 1) (0 : Fin 1) r) :=
  shapeCast_apply _ _ (ix1 r) (ix3 (0 : Fin 1) (0 : Fin 1) r) (by
    rw [Shape.rowMajor_val_one, Shape.rowMajor_val_three]; show (0 * 1 + 0) * 4096 + r.val = r.val; omega)

theorem exp_pt (v : FVec Ideal S4096x256 .f32) (i : S4096x256.Idx) : exp v i = Ideal.exp (v i) := rfl

/-- The x weights of a tile at (pixel r, bin j). -/
theorem pay10_apply (x0 : Vec Ideal S1x1x4096 .f32) (x2 : Vec Ideal S256 .f32) (r : Fin 4096) (j : Fin 256) :
    k0_pay10 (F := Ideal) x0 x2 (ix2 r j) = wgt (x0 (ix3 (0 : Fin 1) (0 : Fin 1) r)) (x2 (ix1 j)) := by
  unfold k0_pay10 wgt
  simp only [exp_pt, mulf_apply, subf_apply, broadcast_apply, col_apply, row_apply, named_sigma]
  rw [show shapeCast S4096 x0 shapeCasts_S1x1x4096_S4096 (ix1 r) = x0 (ix3 (0 : Fin 1) (0 : Fin 1) r) from lane_apply x0 _ r]
  rfl

/-- The y weights of a tile at (pixel r, bin j). -/
theorem pay11_apply (x1 : Vec Ideal S1x1x4096 .f32) (x2 : Vec Ideal S256 .f32) (r : Fin 4096) (j : Fin 256) :
    k0_pay11 (F := Ideal) x1 x2 (ix2 r j) = wgt (x1 (ix3 (0 : Fin 1) (0 : Fin 1) r)) (x2 (ix1 j)) := by
  unfold k0_pay11 wgt
  simp only [exp_pt, mulf_apply, subf_apply, broadcast_apply, col_apply, row_apply, named_sigma]
  rw [show shapeCast S4096 x1 shapeCasts_S1x1x4096_S4096 (ix1 r) = x1 (ix3 (0 : Fin 1) (0 : Fin 1) r) from lane_apply x1 _ r]
  rfl

/-- The sum of a [4096,256] array over its pixels, at bin j. -/
theorem colsum_apply (v : FVec Ideal S4096x256 .f32) (h : S4096x256.Reduces [0] S256) (hφ : FKind.Formats .f32)
    (hacc : (0x00000000#32 : BitVec 32) = FKind.add.neutral .f32 hφ) (j : Fin 256) :
    multiReduction .add [0] S256 v 0x00000000#32 h hφ hacc (ix1 j) = ∑ r : Fin 4096, v (ix2 r j) :=
  (Ideal.multiReduction_add_single v _ h hφ hacc (ix1 j)).trans
    (Finset.sum_congr rfl fun r _ => congrArg v (funext fun a => Fin.ext (by
      match a with
      | ⟨0, _⟩ => rfl
      | ⟨1, _⟩ => rfl)))

/-- Accumulator 0 after a tile: what it held plus the column sums of the x weights. -/
theorem acc0_apply (x0 : Vec Ideal S1x1x4096 .f32) (x2 s : Vec Ideal S256 .f32) (j : Fin 256) :
    k0_pay1 (F := Ideal) (k0_pay12 (F := Ideal) x0 x2 s) (ix1 j)
      = s (ix1 j) + ∑ r : Fin 4096, wgt (x0 (ix3 (0 : Fin 1) (0 : Fin 1) r)) (x2 (ix1 j)) := by
  unfold k0_pay1 k0_pay12
  rw [shapeCast_self, addf_apply]
  exact congrArg (s (ix1 j) + ·) ((colsum_apply _ _ _ _ j).trans (Finset.sum_congr rfl fun r _ => pay10_apply x0 x2 r j))

/-- Accumulator 1 after a tile: what it held plus the column sums of the y weights. -/
theorem acc1_apply (x1 : Vec Ideal S1x1x4096 .f32) (x2 s : Vec Ideal S256 .f32) (j : Fin 256) :
    k0_pay2 (F := Ideal) (k0_pay11 (F := Ideal) x1 x2) s (ix1 j)
      = s (ix1 j) + ∑ r : Fin 4096, wgt (x1 (ix3 (0 : Fin 1) (0 : Fin 1) r)) (x2 (ix1 j)) := by
  unfold k0_pay2
  rw [shapeCast_self, addf_apply]
  exact congrArg (s (ix1 j) + ·) ((colsum_apply _ _ _ _ j).trans (Finset.sum_congr rfl fun r _ => pay11_apply x1 x2 r j))

theorem lhsT_1 (i : S256x256.Idx) (q : dot_S4096x256_S4096x256_S256x256_0_0_1_1_n_n.contr.Idx) :
    (dot_S4096x256_S4096x256_S256x256_0_0_1_1_n_n.lhsIdx i q 1).val = (i 0).val := by
  unfold DotDims.lhsIdx
  rw [dif_neg (show ¬(1 : Fin S4096x256.rank) ∈ dot_S4096x256_S4096x256_S256x256_0_0_1_1_n_n.lhsBatch by decide), dif_pos (show (1 : Fin S4096x256.rank) ∈ dot_S4096x256_S4096x256_S256x256_0_0_1_1_n_n.lhsNonContracting by decide)]
  rfl
theorem rhsT_1 (i : S256x256.Idx) (q : dot_S4096x256_S4096x256_S256x256_0_0_1_1_n_n.contr.Idx) :
    (dot_S4096x256_S4096x256_S256x256_0_0_1_1_n_n.rhsIdx i q 1).val = (i 1).val := by
  unfold DotDims.rhsIdx
  rw [dif_neg (show ¬(1 : Fin S4096x256.rank) ∈ dot_S4096x256_S4096x256_S256x256_0_0_1_1_n_n.rhsBatch by decide), dif_pos (show (1 : Fin S4096x256.rank) ∈ dot_S4096x256_S4096x256_S256x256_0_0_1_1_n_n.rhsNonContracting by decide)]
  rfl

/-- The matrix product contracting the pixel axis of both factors, into the zero accumulator. -/
theorem joint_apply (u v : FVec Ideal S4096x256 .bf16) (a b : Fin 256) :
    matmul dot_S4096x256_S4096x256_S256x256_0_0_1_1_n_n none u v (constant S256x256 .f32 0x00000000#32) (ix2 a b)
      = ∑ r : Fin 4096, u (ix2 r a) * v (ix2 r b) := by
  show FloatOps.matmul dot_S4096x256_S4096x256_S256x256_0_0_1_1_n_n none u v (constant S256x256 .f32 0x00000000#32) (ix2 a b) = _
  rw [Ideal.matmul_constant_zero_apply, ← Equiv.sum_comp (ValueIdx.contrEquiv1 dot_S4096x256_S4096x256_S256x256_0_0_1_1_n_n 4096 rfl rfl).symm]
  refine Finset.sum_congr rfl fun k _ => ?_
  have hk := ValueIdx.contrEquiv1_symm_val dot_S4096x256_S4096x256_S256x256_0_0_1_1_n_n 4096 rfl rfl k
  have el : dot_S4096x256_S4096x256_S256x256_0_0_1_1_n_n.lhsIdx (ix2 a b) ((ValueIdx.contrEquiv1 dot_S4096x256_S4096x256_S256x256_0_0_1_1_n_n 4096 rfl rfl).symm k) = ix2 k a := funext fun d => Fin.ext (by
    match d with
    | ⟨0, _⟩ => exact (dot_S4096x256_S4096x256_S256x256_0_0_1_1_n_n.lhsIdx_val_of_single rfl (ix2 a b) _).trans hk
    | ⟨1, _⟩ => exact lhsT_1 _ _)
  have er : dot_S4096x256_S4096x256_S256x256_0_0_1_1_n_n.rhsIdx (ix2 a b) ((ValueIdx.contrEquiv1 dot_S4096x256_S4096x256_S256x256_0_0_1_1_n_n 4096 rfl rfl).symm k) = ix2 k b := funext fun d => Fin.ext (by
    match d with
    | ⟨0, _⟩ => exact (dot_S4096x256_S4096x256_S256x256_0_0_1_1_n_n.rhsIdx_val_of_single rfl (ix2 a b) _).trans hk
    | ⟨1, _⟩ => exact rhsT_1 _ _)
  rw [el, er]

/-- Accumulator 2 after a tile: what it held plus the joint products of the x and y weights. -/
theorem acc2_apply (x0 x1 : Vec Ideal S1x1x4096 .f32) (x2 : Vec Ideal S256 .f32) (s : Vec Ideal S256x256 .f32) (a b : Fin 256) :
    k0_pay3 (F := Ideal) (k0_pay10 (F := Ideal) x0 x2) (k0_pay11 (F := Ideal) x1 x2) s (ix2 a b)
      = s (ix2 a b) + ∑ r : Fin 4096, wgt (x0 (ix3 (0 : Fin 1) (0 : Fin 1) r)) (x2 (ix1 a)) * wgt (x1 (ix3 (0 : Fin 1) (0 : Fin 1) r)) (x2 (ix1 b)) := by
  unfold k0_pay3
  rw [shapeCast_self, addf_apply]
  refine congrArg (s (ix2 a b) + ·) ((joint_apply _ _ a b).trans (Finset.sum_congr rfl fun r _ => ?_))
  rw [truncf_apply, truncf_apply, pay10_apply, pay11_apply]

/-- The zero fills are zero. -/
theorem zero1 (j : Fin 256) : k0_pay7 (F := Ideal) (ix1 j) = 0 := by
  unfold k0_pay7; rw [shapeCast_self, broadcast_apply]; exact Cert.Parzen.ofBits_zero
theorem zero2 (j : Fin 256) : k0_pay8 (F := Ideal) (ix1 j) = 0 := by
  unfold k0_pay8; rw [shapeCast_self, broadcast_apply]; exact Cert.Parzen.ofBits_zero
theorem zero3 (a b : Fin 256) : k0_pay9 (F := Ideal) (ix2 a b) = 0 := by
  unfold k0_pay9; rw [shapeCast_self, broadcast_apply]; exact Cert.Parzen.ofBits_zero

/-- The copies out of the accumulators only re-shape them. -/
theorem out3_apply (v : Vec Ideal S256 .f32) (j : Fin 256) :
    k0_pay4 (F := Ideal) v (ix3 (0 : Fin 1) (0 : Fin 1) j) = v (ix1 j) := by
  unfold k0_pay4
  exact shapeCast_apply _ _ (ix3 (0 : Fin 1) (0 : Fin 1) j) (ix1 j) (by
    rw [Shape.rowMajor_val_one, Shape.rowMajor_val_three]; show j.val = (0 * 1 + 0) * 256 + j.val; omega)
theorem out4_apply (v : Vec Ideal S256 .f32) (j : Fin 256) :
    k0_pay5 (F := Ideal) v (ix3 (0 : Fin 1) (0 : Fin 1) j) = v (ix1 j) := by
  unfold k0_pay5
  exact shapeCast_apply _ _ (ix3 (0 : Fin 1) (0 : Fin 1) j) (ix1 j) (by
    rw [Shape.rowMajor_val_one, Shape.rowMajor_val_three]; show j.val = (0 * 1 + 0) * 256 + j.val; omega)
theorem out5_apply (v : Vec Ideal S256x256 .f32) (a b : Fin 256) :
    k0_pay6 (F := Ideal) v (ix3 (0 : Fin 1) a b) = v (ix2 a b) := by
  unfold k0_pay6
  exact shapeCast_apply _ _ (ix3 (0 : Fin 1) a b) (ix2 a b) (by
    rw [Shape.rowMajor_val_two, Shape.rowMajor_val_three]; show a.val * 256 + b.val = (0 * 256 + a.val) * 256 + b.val; omega)

end Cert.KernelIdeal.Tile

end
-- ==== Proof.LibTileRows.lean ====
/-
  Running totals over rows of tiles. The points 0, 1, 2, … of a grid are grouped into rows of 16 consecutive points
  (row n / 16, position n % 16). For a term T n attached to every point, run T n is the sum of the terms of the points
  of n's row up to and including n. It starts afresh at the first point of a row, grows by the point's own term at every
  later point, and at the last point of a row it is the sum of the row's 16 terms. Only commutative addition is used, so
  the statements hold on the extended reals without any finiteness.
-/
import Mathlib
import proofs.«116807_j66838281060468_1_alg».proof.Proof.LibPrefixSums

noncomputable section

namespace TileRows

open Finset

variable {M : Type*} [AddCommMonoid M]

/-- The sum of the terms of the points of `n`'s row up to `n`. -/
def run (T : ℕ → M) (n : ℕ) : M := PrefixSums.upto (fun l : Fin 16 => T (16 * (n / 16) + l.val)) (n % 16)

/-- At the first point of a row: the point's own term. -/
theorem run_first (T : ℕ → M) (n : ℕ) (h : n % 16 = 0) : run T n = T n := by
  unfold run
  rw [h, PrefixSums.upto_zero _ (by norm_num)]
  show T (16 * (n / 16) + 0) = T n
  congr 1; omega

/-- At a later point of a row: the total at the point before plus the point's own term. -/
theorem run_next (T : ℕ → M) (n : ℕ) (h : n % 16 ≠ 0) : run T n = run T (n - 1) + T n := by
  unfold run
  obtain ⟨a, ha⟩ : ∃ a, n % 16 = a + 1 := ⟨n % 16 - 1, by omega⟩
  have e1 : (n - 1) / 16 = n / 16 := by omega
  have e2 : (n - 1) % 16 = a := by omega
  have ha' : a + 1 < 16 := by omega
  rw [e1, e2, ha, PrefixSums.upto_succ _ a ha']
  congr 1
  show T (16 * (n / 16) + (a + 1)) = T n
  congr 1; omega

/-- At the last point of a row: the sum of the row's 16 terms. -/
theorem run_last (T : ℕ → M) (n : ℕ) (h : n % 16 = 15) :
    run T n = ∑ l : Fin 16, T (16 * (n / 16) + l.val) := by
  unfold run
  rw [h]
  exact PrefixSums.upto_all _ 15 (by norm_num)

end TileRows

end
-- ==== Proof.IdealAccum.lean ====
/-
  The accumulators as running totals. At the exact values the tile at grid point n contributes, for bin j, the column
  sum T0 n j = Σ_r w(x pixel r of the tile, bin j) of the x weights, the same sum T1 n j of the y weights, and for a pair
  of bins the joint product T2 n a b = Σ_r w(x_r, bin a)·w(y_r, bin b). After point n the three accumulators hold the
  running totals of these terms over n's row of 16 tiles: a first tile stores zero and adds its term, every later tile
  adds its term to what the tile before left. The proof is an induction on the point. At the last tile of a row the
  outputs receive the row's full sums.
-/
import proofs.«116807_j66838281060468_1_alg».proof.Proof.IdealPieces
import proofs.«116807_j66838281060468_1_alg».proof.Proof.IdealTile
import proofs.«116807_j66838281060468_1_alg».proof.Proof.LibTileRows

set_option maxRecDepth 16384
set_option maxHeartbeats 4000000

noncomputable section

namespace Cert.KernelIdeal.Accum

open Cert.KernelIdeal Cert.KernelIdeal.Gen Cert.KernelIdeal.Region Cert.KernelIdeal.Tile
open Idealize.ShloMosaic Idealize.ShloMosaic.TcCoe Idealize.ShloMosaic.ValueIdx Idealize.SL.Sem
open Idealize.ShloMosaic.Pipeline (Dat)
open Cert.Parzen (wgt)

variable (m : (ℓ : Loc nD τ sig) → Buf (Elt Ideal) ℓ) (c : Dev nD)

/-- Pixel r of the x tile at grid point n (zero past the grid). -/
def px (n : ℕ) (r : Fin 4096) : EReal :=
  if h : n < cfg0.N then (iblk m c 0 ⟨n, h⟩ : Vec Ideal S1x1x4096 .f32) (ix3 (0 : Fin 1) (0 : Fin 1) r) else 0
/-- Pixel r of the y tile at grid point n. -/
def py (n : ℕ) (r : Fin 4096) : EReal :=
  if h : n < cfg0.N then (iblk m c 1 ⟨n, h⟩ : Vec Ideal S1x1x4096 .f32) (ix3 (0 : Fin 1) (0 : Fin 1) r) else 0
/-- Bin centre j as the tile at grid point n sees it. -/
def bn (n : ℕ) (j : Fin 256) : EReal :=
  if h : n < cfg0.N then (iblk m c 2 ⟨n, h⟩ : Vec Ideal S256 .f32) (ix1 j) else 0

/-- The tile's column sum of x weights at bin j. -/
def T0 (j : Fin 256) (n : ℕ) : EReal := ∑ r : Fin 4096, wgt (px m c n r) (bn m c n j)
/-- The tile's column sum of y weights at bin j. -/
def T1 (j : Fin 256) (n : ℕ) : EReal := ∑ r : Fin 4096, wgt (py m c n r) (bn m c n j)
/-- The tile's joint product at bins (a, b). -/
def T2 (a b : Fin 256) (n : ℕ) : EReal := ∑ r : Fin 4096, wgt (px m c n r) (bn m c n a) * wgt (py m c n r) (bn m c n b)

/-- One tile's update of accumulator 0. -/
theorem step0 (t : Fin cfg0.N) (s : Vec Ideal S256 .f32) (j : Fin 256) :
    k0_pay1 (F := Ideal) (k0_pay12 (F := Ideal) (iblk m c 0 t) (iblk m c 2 t) s) (ix1 j) = s (ix1 j) + T0 m c j t.val := by
  refine (acc0_apply (iblk m c 0 t) (iblk m c 2 t) s j).trans ?_
  unfold T0 px bn
  simp only [dif_pos t.isLt]

/-- One tile's update of accumulator 1. -/
theorem step1 (t : Fin cfg0.N) (s : Vec Ideal S256 .f32) (j : Fin 256) :
    k0_pay2 (F := Ideal) (k0_pay11 (F := Ideal) (iblk m c 1 t) (iblk m c 2 t)) s (ix1 j) = s (ix1 j) + T1 m c j t.val := by
  refine (acc1_apply (iblk m c 1 t) (iblk m c 2 t) s j).trans ?_
  unfold T1 py bn
  simp only [dif_pos t.isLt]

/-- One tile's update of accumulator 2. -/
theorem step2 (t : Fin cfg0.N) (s : Vec Ideal S256x256 .f32) (a b : Fin 256) :
    k0_pay3 (F := Ideal) (k0_pay10 (F := Ideal) (iblk m c 0 t) (iblk m c 2 t)) (k0_pay11 (F := Ideal) (iblk m c 1 t) (iblk m c 2 t)) s (ix2 a b)
      = s (ix2 a b) + T2 m c a b t.val := by
  refine (acc2_apply (iblk m c 0 t) (iblk m c 1 t) (iblk m c 2 t) s a b).trans ?_
  unfold T2 px py bn
  simp only [dif_pos t.isLt]

/-- What "the accumulators hold the running totals" says of the contents after a point. -/
def Good (n : ℕ) (p : Outs Ideal) : Prop :=
  (∀ j, p.s0 (ix1 j) = TileRows.run (T0 m c j) n) ∧ (∀ j, p.s1 (ix1 j) = TileRows.run (T1 m c j) n)
    ∧ (∀ a b, p.s2 (ix2 a b) = TileRows.run (T2 m c a b) n)

theorem good_A (t : Fin cfg0.N) (h0 : t.val % 16 = 0) : Good m c t.val (outsA m c t h0) := by
  refine ⟨fun j => ?_, fun j => ?_, fun a b => ?_⟩
  · rw [sA0, step0, zero1, zero_add, TileRows.run_first _ _ h0]
  · rw [sA1, step1, zero2, zero_add, TileRows.run_first _ _ h0]
  · rw [sA2, step2, zero3, zero_add, TileRows.run_first _ _ h0]

theorem good_B (t : Fin cfg0.N) (h0 : ¬t.val % 16 = 0) (h1 : ¬t.val % 16 = 15) (p : Outs Ideal) (hp : Good m c (t.val - 1) p) :
    Good m c t.val (outsB m c t h0 h1 p) := by
  refine ⟨fun j => ?_, fun j => ?_, fun a b => ?_⟩
  · rw [sB0, step0, hp.1, TileRows.run_next _ _ h0]
  · rw [sB1, step1, hp.2.1, TileRows.run_next _ _ h0]
  · rw [sB2, step2, hp.2.2, TileRows.run_next _ _ h0]

theorem good_C (t : Fin cfg0.N) (h0 : ¬t.val % 16 = 0) (h1 : t.val % 16 = 15) (p : Outs Ideal) (hp : Good m c (t.val - 1) p) :
    Good m c t.val (outsC m c t h0 h1 p) := by
  refine ⟨fun j => ?_, fun j => ?_, fun a b => ?_⟩
  · rw [sC0, step0, hp.1, TileRows.run_next _ _ h0]
  · rw [sC1, step1, hp.2.1, TileRows.run_next _ _ h0]
  · rw [sC2, step2, hp.2.2, TileRows.run_next _ _ h0]

/-- After every point the accumulators hold the running totals of their row. -/
theorem good_all : ∀ (n : ℕ) (h : n < cfg0.N), Good m c n (outsAt0 m c n h)
  | 0, h => by
    rw [outsAt0_A m c ⟨0, h⟩ rfl]
    exact good_A m c ⟨0, h⟩ rfl
  | n + 1, h => by
    by_cases h0 : (n + 1) % 16 = 0
    · rw [outsAt0_A m c ⟨n + 1, h⟩ h0]
      exact good_A m c ⟨n + 1, h⟩ h0
    · by_cases h1 : (n + 1) % 16 = 15
      · rw [outsAt0_C m c ⟨n + 1, h⟩ h0 h1]
        exact good_C m c ⟨n + 1, h⟩ h0 h1 _ (good_all n (Nat.lt_of_succ_lt h))
      · rw [outsAt0_B m c ⟨n + 1, h⟩ h0 h1]
        exact good_B m c ⟨n + 1, h⟩ h0 h1 _ (good_all n (Nat.lt_of_succ_lt h))

/-- At the last tile of a row the three outputs receive the row's full sums. -/
theorem outs_last (t : Fin cfg0.N) (h1 : t.val % 16 = 15) :
    (∀ j, (outsAt0 m c t.val t.isLt).o3 (ix3 (0 : Fin 1) (0 : Fin 1) j) = ∑ l : Fin 16, T0 m c j (16 * (t.val / 16) + l.val))
    ∧ (∀ j, (outsAt0 m c t.val t.isLt).o4 (ix3 (0 : Fin 1) (0 : Fin 1) j) = ∑ l : Fin 16, T1 m c j (16 * (t.val / 16) + l.val))
    ∧ (∀ a b, (outsAt0 m c t.val t.isLt).o5 (ix3 (0 : Fin 1) a b) = ∑ l : Fin 16, T2 m c a b (16 * (t.val / 16) + l.val)) := by
  have h0 : ¬t.val % 16 = 0 := by omega
  have hg := good_all m c t.val t.isLt
  rw [outsAt0_C m c t h0 h1] at hg ⊢
  refine ⟨fun j => ?_, fun j => ?_, fun a b => ?_⟩
  · rw [oC3, out3_apply, hg.1, TileRows.run_last _ _ h1]
  · rw [oC4, out4_apply, hg.2.1, TileRows.run_last _ _ h1]
  · rw [oC5, out5_apply, hg.2.2, TileRows.run_last _ _ h1]

end Cert.KernelIdeal.Accum

end
-- ==== Proof.IdealArrays.lean ====
/-
  The three arrays the region writes, as whole-array functions. A row of 16 tiles is written out once, at its last
  tile, into block (row, 0, 0) of each output: the [8,1,256] arrays of column sums receive, at (b, 0, j), the sum over
  the 16 tiles of row b of the tile's column sum at bin j; the [8,256,256] array receives at (b, a, b') the sum over the
  tiles of the joint products at bins (a, b'). Each index of an output lies in the block of exactly the row's last
  tile, so the eight write-backs cover each array.
-/
import proofs.«116807_j66838281060468_1_alg».proof.Proof.IdealAccum

set_option maxRecDepth 16384
set_option maxHeartbeats 4000000

noncomputable section

namespace Cert.KernelIdeal.Arrays

open Cert.KernelIdeal Cert.KernelIdeal.Gen Cert.KernelIdeal.Region Cert.KernelIdeal.Tile Cert.KernelIdeal.Accum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The column sums of the x weights of row b at bin j, tile by tile. -/
def G3 : S8x1x256.Idx → EReal := fun i => ∑ l : Fin 16, T0 m c ⟨(i 2).val, (i 2).isLt⟩ (16 * (i 0).val + l.val)
/-- The column sums of the y weights. -/
def G4 : S8x1x256.Idx → EReal := fun i => ∑ l : Fin 16, T1 m c ⟨(i 2).val, (i 2).isLt⟩ (16 * (i 0).val + l.val)
/-- The joint products. -/
def G5 : S8x256x256.Idx → EReal := fun i => ∑ l : Fin 16, T2 m c ⟨(i 1).val, (i 1).isLt⟩ ⟨(i 2).val, (i 2).isLt⟩ (16 * (i 0).val + l.val)

/-- The block index of each output window at a point: (row, 0, 0). -/
theorem idx_out : ∀ t : Fin cfg0.N,
    (win0_3.index t (0 : Fin 3) = t.val / 16 ∧ win0_3.index t (1 : Fin 3) = 0 ∧ win0_3.index t (2 : Fin 3) = 0)
    ∧ (win0_4.index t (0 : Fin 3) = t.val / 16 ∧ win0_4.index t (1 : Fin 3) = 0 ∧ win0_4.index t (2 : Fin 3) = 0)
    ∧ (win0_5.index t (0 : Fin 3) = t.val / 16 ∧ win0_5.index t (1 : Fin 3) = 0 ∧ win0_5.index t (2 : Fin 3) = 0) :=
  (by decide +kernel : ∀ t : Fin grid0.N, _)

theorem blk3_at (t : Fin cfg0.N) (h15 : t.val % 16 = 15) (y : S1x1x256.Idx) :
    (outsAt0 m c t.val t.isLt).o3 y = G3 m c (((cfg0.win 3).blk t).view.emb y) := by
  obtain ⟨e0, e1, e2⟩ := (idx_out t).1
  have y0 : (y 0).val < 1 := (y 0).isLt
  have y1 : (y 1).val < 1 := (y 1).isLt
  have y2 : (y 2).val < 256 := (y 2).isLt
  have hy : y = ix3 (0 : Fin 1) (0 : Fin 1) (⟨(y 2).val, y2⟩ : Fin 256) := funext fun a => Fin.ext (by
    match a with
    | ⟨0, _⟩ => show (y 0).val = 0; omega
    | ⟨1, _⟩ => show (y 1).val = 0; omega
    | ⟨2, _⟩ => rfl)
  have a0 : ((((cfg0.win 3).blk t).view.emb y) 0).val = t.val / 16 := by
    show win0_3.index t (0 : Fin 3) * 1 + 1 * (y 0).val = _; omega
  have a1 : ((((cfg0.win 3).blk t).view.emb y) 1).val = (y 1).val := by
    show win0_3.index t (1 : Fin 3) * 1 + 1 * (y 1).val = _; omega
  have a2 : ((((cfg0.win 3).blk t).view.emb y) 2).val = (y 2).val := by
    show win0_3.index t (2 : Fin 3) * 256 + 1 * (y 2).val = _; omega
  rw [hy, (outs_last m c t h15).1, ← hy]
  unfold G3
  refine Finset.sum_congr rfl fun l _ => ?_
  congr 1
  · exact Fin.ext a2.symm
  · rw [a0]

/-- What the last tile of a row writes back is block (row, 0, 0) of `G3`. -/
theorem flushed3_eq (t : Fin cfg0.N) (hf : (cfg0.win 3).flush t = true) :
    (dats m 0 c).flushed 3 t = ((cfg0.win 3).blk t).view.read (Elt Ideal) (G3 m c) := by
  have h15 : t.val % 16 = 15 := (flush0_3 t).mp hf
  show (cfg0.win 3).cut (grid0.coords t) ((dats m 0 c).after 3 t) = _
  rw [after0_3]
  funext y
  exact blk3_at m c t h15 y

theorem blk4_at (t : Fin cfg0.N) (h15 : t.val % 16 = 15) (y : S1x1x256.Idx) :
    (outsAt0 m c t.val t.isLt).o4 y = G4 m c (((cfg0.win 4).blk t).view.emb y) := by
  obtain ⟨e0, e1, e2⟩ := (idx_out t).2.1
  have y0 : (y 0).val < 1 := (y 0).isLt
  have y1 : (y 1).val < 1 := (y 1).isLt
  have y2 : (y 2).val < 256 := (y 2).isLt
  have hy : y = ix3 (0 : Fin 1) (0 : Fin 1) (⟨(y 2).val, y2⟩ : Fin 256) := funext fun a => Fin.ext (by
    match a with
    | ⟨0, _⟩ => show (y 0).val = 0; omega
    | ⟨1, _⟩ => show (y 1).val = 0; omega
    | ⟨2, _⟩ => rfl)
  have a0 : ((((cfg0.win 4).blk t).view.emb y) 0).val = t.val / 16 := by
    show win0_4.index t (0 : Fin 3) * 1 + 1 * (y 0).val = _; omega
  have a1 : ((((cfg0.win 4).blk t).view.emb y) 1).val = (y 1).val := by
    show win0_4.index t (1 : Fin 3) * 1 + 1 * (y 1).val = _; omega
  have a2 : ((((cfg0.win 4).blk t).view.emb y) 2).val = (y 2).val := by
    show win0_4.index t (2 : Fin 3) * 256 + 1 * (y 2).val = _; omega
  rw [hy, (outs_last m c t h15).2.1, ← hy]
  unfold G4
  refine Finset.sum_congr rfl fun l _ => ?_
  congr 1
  · exact Fin.ext a2.symm
  · rw [a0]

/-- What the last tile of a row writes back is block (row, 0, 0) of `G4`. -/
theorem flushed4_eq (t : Fin cfg0.N) (hf : (cfg0.win 4).flush t = true) :
    (dats m 0 c).flushed 4 t = ((cfg0.win 4).blk t).view.read (Elt Ideal) (G4 m c) := by
  have h15 : t.val % 16 = 15 := (flush0_4 t).mp hf
  show (cfg0.win 4).cut (grid0.coords t) ((dats m 0 c).after 4 t) = _
  rw [after0_4]
  funext y
  exact blk4_at m c t h15 y

theorem blk5_at (t : Fin cfg0.N) (h15 : t.val % 16 = 15) (y : S1x256x256.Idx) :
    (outsAt0 m c t.val t.isLt).o5 y = G5 m c (((cfg0.win 5).blk t).view.emb y) := by
  obtain ⟨e0, e1, e2⟩ := (idx_out t).2.2
  have y0 : (y 0).val < 1 := (y 0).isLt
  have y1 : (y 1).val < 256 := (y 1).isLt
  have y2 : (y 2).val < 256 := (y 2).isLt
  have hy : y = ix3 (0 : Fin 1) (⟨(y 1).val, y1⟩ : Fin 256) (⟨(y 2).val, y2⟩ : Fin 256) := funext fun a => Fin.ext (by
    match a with
    | ⟨0, _⟩ => show (y 0).val = 0; omega
    | ⟨1, _⟩ => rfl
    | ⟨2, _⟩ => rfl)
  have a0 : ((((cfg0.win 5).blk t).view.emb y) 0).val = t.val / 16 := by
    show win0_5.index t (0 : Fin 3) * 1 + 1 * (y 0).val = _; omega
  have a1 : ((((cfg0.win 5).blk t).view.emb y) 1).val = (y 1).val := by
    show win0_5.index t (1 : Fin 3) * 256 + 1 * (y 1).val = _; omega
  have a2 : ((((cfg0.win 5).blk t).view.emb y) 2).val = (y 2).val := by
    show win0_5.index t (2 : Fin 3) * 256 + 1 * (y 2).val = _; omega
  rw [hy, (outs_last m c t h15).2.2, ← hy]
  unfold G5
  refine Finset.sum_congr rfl fun l _ => ?_
  congr 1
  · exact Fin.ext a1.symm
  · exact Fin.ext a2.symm
  · rw [a0]

/-- What the last tile of a row writes back is block (row, 0, 0) of `G5`. -/
theorem flushed5_eq (t : Fin cfg0.N) (hf : (cfg0.win 5).flush t = true) :
    (dats m 0 c).flushed 5 t = ((cfg0.win 5).blk t).view.read (Elt Ideal) (G5 m c) := by
  have h15 : t.val % 16 = 15 := (flush0_5 t).mp hf
  show (cfg0.win 5).cut (grid0.coords t) ((dats m 0 c).after 5 t) = _
  rw [after0_5]
  funext y
  exact blk5_at m c t h15 y

/-- The last tile of row b: point 16·b + 15. -/
def lastOf (b : ℕ) (hb : b < 8) : Fin cfg0.N := ⟨16 * b + 15, by rw [show cfg0.N = 128 from N_0]; omega⟩

theorem cover3 (i : S8x1x256.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 256 := (i 2).isLt
  refine ⟨lastOf (i 0).val h0, (flush0_3 _).mpr (by show (16 * (i 0).val + 15) % 16 = 15; omega), ?_⟩
  obtain ⟨⟨e0, e1, e2⟩, -, -⟩ := idx_out (lastOf (i 0).val h0)
  have ev : (lastOf (i 0).val h0).val / 16 = (i 0).val := by show (16 * (i 0).val + 15) / 16 = _; omega
  show i ∈ ((View.whole main_v2_0).slice (win0_3.rect (lastOf (i 0).val h0))).set
  rw [View.set_slice_whole, Rect.mem_set_unit]
  intro a
  match a with
  | ⟨0, _⟩ => show win0_3.index (lastOf (i 0).val h0) (0 : Fin 3) * 1 ≤ (i 0).val ∧ (i 0).val < win0_3.index (lastOf (i 0).val h0) (0 : Fin 3) * 1 + 1; omega
  | ⟨1, _⟩ => show win0_3.index (lastOf (i 0).val h0) (1 : Fin 3) * 1 ≤ (i 1).val ∧ (i 1).val < win0_3.index (lastOf (i 0).val h0) (1 : Fin 3) * 1 + 1; omega
  | ⟨2, _⟩ => show win0_3.index (lastOf (i 0).val h0) (2 : Fin 3) * 256 ≤ (i 2).val ∧ (i 2).val < win0_3.index (lastOf (i 0).val h0) (2 : Fin 3) * 256 + 256; omega

theorem cover4 (i : S8x1x256.Idx) : ∃ t : Fin cfg0.N, (cfg0.win 4).flush t = true ∧ i ∈ ((cfg0.win 4).blk t).view.set := by
  have h0 : (i 0).val < 8 := (i 0).isLt
  have h1 : (i 1).val < 1 := (i 1).isLt
  have h2 : (i 2).val < 256 := (i 2).isLt
  refine ⟨lastOf (i 0).val h0, (flush0_4 _).mpr (by show (16 * (i 0).val + 15) % 16 = 15; omega), ?_⟩
  obtain ⟨-, ⟨e0, e1, e2⟩, -⟩ := idx_out (lastOf (i 0).val h0)
  have ev : (lastOf (i 0).val h0).val / 16 = (i 0).val := by show (16 * (i 0).val + 15) / 16 = _; omega
  show i ∈ ((View.whole main_v2_1).slice (win0_4.rect (lastOf (i 0).val h0))).set
  rw [View.set_slice_whole, Rect.mem_set_unit]
  intro a
  match a with
  | ⟨0, _⟩ => show win0_4.index (lastOf (i 0).val h0) (0 : Fin 3) * 1 ≤ (i 0).val ∧ (i 0).val < win0_4.index (lastOf (i 0).val h0) (0 : Fin 3) * 1 + 1; omega
  | ⟨1, _⟩ => show win0_4.index (lastOf (i 0).val h0) (1 : Fin 3) * 1 ≤ (i 1).val ∧ (i 1).val < win0_4.index (lastOf (i 0).val h0) (1 : Fin 3) * 1 + 1; omega
  | ⟨2, _⟩ => show win0_4.index (lastOf (i 0).val h0) (2 : Fin 3) * 256 ≤ (i 2).val ∧ (i 2).val < win0_4.index (lastOf (i 0).val h0) (2 : Fin 3) * 256 + 256; omega

theorem cover5 (i : S8x256x256.Idx) : ∃ t : Fin cfg0.N, (cfg0.win 5).flush t = true ∧ i ∈ ((cfg0.win 5).blk t).view.set := by
  have h0 : (i 0).val < 8 := (i 0).isLt
  have h1 : (i 1).val < 256 := (i 1).isLt
  have h2 : (i 2).val < 256 := (i 2).isLt
  refine ⟨lastOf (i 0).val h0, (flush0_5 _).mpr (by show (16 * (i 0).val + 15) % 16 = 15; omega), ?_⟩
  obtain ⟨-, -, ⟨e0, e1, e2⟩⟩ := idx_out (lastOf (i 0).val h0)
  have ev : (lastOf (i 0).val h0).val / 16 = (i 0).val := by show (16 * (i 0).val + 15) / 16 = _; omega
  show i ∈ ((View.whole main_v2_2).slice (win0_5.rect (lastOf (i 0).val h0))).set
  rw [View.set_slice_whole, Rect.mem_set_unit]
  intro a
  match a with
  | ⟨0, _⟩ => show win0_5.index (lastOf (i 0).val h0) (0 : Fin 3) * 1 ≤ (i 0).val ∧ (i 0).val < win0_5.index (lastOf (i 0).val h0) (0 : Fin 3) * 1 + 1; omega
  | ⟨1, _⟩ => show win0_5.index (lastOf (i 0).val h0) (1 : Fin 3) * 256 ≤ (i 1).val ∧ (i 1).val < win0_5.index (lastOf (i 0).val h0) (1 : Fin 3) * 256 + 256; omega
  | ⟨2, _⟩ => show win0_5.index (lastOf (i 0).val h0) (2 : Fin 3) * 256 ≤ (i 2).val ∧ (i 2).val < win0_5.index (lastOf (i 0).val h0) (2 : Fin 3) * 256 + 256; omega

/-- The three arrays after the region. -/
theorem final3 : (dats m 0 c).arrAt 3 cfg0.N = G3 m c :=
  (dats m 0 c).arrAt_eq_of_cover 3 (G3 m c) (flushed3_eq m c) (cover3)
theorem final4 : (dats m 0 c).arrAt 4 cfg0.N = G4 m c :=
  (dats m 0 c).arrAt_eq_of_cover 4 (G4 m c) (flushed4_eq m c) (cover4)
theorem final5 : (dats m 0 c).arrAt 5 cfg0.N = G5 m c :=
  (dats m 0 c).arrAt_eq_of_cover 5 (G5 m c) (flushed5_eq m c) (cover5)

end Cert.KernelIdeal.Arrays

end
-- ==== Proof.IdealBlocks.lean ====
/-
  The tiles named by the images. The region reads the image x flattened to [8,1,65536]; the tile at grid point 16·b + l
  is pixels 4096·l … 4096·l + 4095 of row b, and every tile sees the whole vector of bin centres. So the 16 tiles of a
  row partition the row's 65536 pixels, and the sums the region writes are the column sums and the joint products over
  all the pixels of a row.
-/
import proofs.«116807_j66838281060468_1_alg».proof.Proof.IdealArrays
import Idealize.ShloMosaic.Lib.StableHlo.Run

set_option maxRecDepth 16384
set_option maxHeartbeats 4000000

noncomputable section

namespace Cert.KernelIdeal.Sums

open Cert.KernelIdeal Cert.KernelIdeal.Gen Cert.KernelIdeal.Region Cert.KernelIdeal.Tile Cert.KernelIdeal.Accum Cert.KernelIdeal.Arrays
open Idealize.ShloMosaic Idealize.ShloMosaic.TcCoe Idealize.ShloMosaic.ValueIdx Idealize.SL.Sem
open Idealize.ShloMosaic.Pipeline (Dat)
open Cert.Parzen (wgt pixel colSum jointSum pix)

variable (m : (ℓ : Loc nD τ sig) → Buf (Elt Ideal) ℓ) (c : Dev nD)

/-- The two images as the region finds them: flattened to [8,1,65536]. -/
theorem V_main_v0 : (V m c main_v0 : S8x1x65536.Idx → EReal)
    = shapeCast S8x1x65536 (m ((c : Thread nD τ).loc main_arg0)) shapeCasts_S8x1x256x256_S8x1x65536 := by
  show StableHlo.after (List.flatten [hostOps0]) (fun b => m (c, b)) (Proc.devRef .tc main_v0) = _
  simp only [hostOps0, List.flatten_cons, List.flatten_nil, List.append_nil]
  after_results
  rfl
theorem V_main_v1 : (V m c main_v1 : S8x1x65536.Idx → EReal)
    = shapeCast S8x1x65536 (m ((c : Thread nD τ).loc main_arg1)) shapeCasts_S8x1x256x256_S8x1x65536 := by
  show StableHlo.after (List.flatten [hostOps0]) (fun b => m (c, b)) (Proc.devRef .tc main_v1) = _
  simp only [hostOps0, List.flatten_cons, List.flatten_nil, List.append_nil]
  after_results
  rfl

/-- The block index of each input window at a point: (row, 0, tile) for the images, 0 for the bins. -/
theorem idx_in : ∀ t : Fin cfg0.N,
    (win0_0.index t (0 : Fin 3) = t.val / 16 ∧ win0_0.index t (1 : Fin 3) = 0 ∧ win0_0.index t (2 : Fin 3) = t.val % 16)
    ∧ (win0_1.index t (0 : Fin 3) = t.val / 16 ∧ win0_1.index t (1 : Fin 3) = 0 ∧ win0_1.index t (2 : Fin 3) = t.val % 16)
    ∧ win0_2.index t (0 : Fin 1) = 0 :=
  (by decide +kernel : ∀ t : Fin grid0.N, _)

theorem pt_lt (b : Fin 8) (l : Fin 16) : 16 * b.val + l.val < cfg0.N := by
  rw [show cfg0.N = 128 from N_0]; have := b.isLt; have := l.isLt; omega

/-- A flattened image at (b, 0, q) is pixel q of row b. -/
theorem flat_pixel (x : S8x1x256x256.Idx → EReal) (h : S8x1x256x256.ShapeCasts S8x1x65536) (i : S8x1x65536.Idx) (b : Fin 8) (q : Fin 65536)
    (h0 : (i 0).val = b.val) (h2 : (i 2).val = q.val) :
    shapeCast S8x1x65536 x h i = pixel x b q := by
  unfold pixel
  refine shapeCast_apply _ _ i _ ?_
  have h1 : (i 1).val < 1 := (i 1).isLt
  have hq := q.isLt
  rw [Shape.rowMajor_val_four, Shape.rowMajor_val_three]
  show ((b.val * 1 + 0) * 256 + q.val / 256) * 256 + q.val % 256 = ((i 0).val * 1 + (i 1).val) * 65536 + (i 2).val
  omega

/-- Pixel r of the x tile at point 16·b + l is pixel 4096·l + r of row b of x. -/
theorem px_eq (b : Fin 8) (l : Fin 16) (r : Fin 4096) :
    px m c (16 * b.val + l.val) r = pixel (m ((c : Thread nD τ).loc main_arg0)) b (pix l r) := by
  have hn := pt_lt b l
  have hb := b.isLt; have hl := l.isLt
  unfold px
  rw [dif_pos hn]
  obtain ⟨⟨e0, e1, e2⟩, -, -⟩ := idx_in ⟨16 * b.val + l.val, hn⟩
  unfold iblk
  rw [View.read_apply]
  show V m c main_v0 (((cfg0.win 0).blk ⟨16 * b.val + l.val, hn⟩).view.emb (ix3 (0 : Fin 1) (0 : Fin 1) r)) = _
  rw [V_main_v0]
  refine flat_pixel _ _ _ b (pix l r) ?_ ?_
  · show win0_0.index ⟨16 * b.val + l.val, hn⟩ (0 : Fin 3) * 1 + 1 * 0 = b.val
    rw [e0]; show (16 * b.val + l.val) / 16 * 1 + 1 * 0 = b.val; omega
  · show win0_0.index ⟨16 * b.val + l.val, hn⟩ (2 : Fin 3) * 4096 + 1 * r.val = l.val * 4096 + r.val
    rw [e2]; show (16 * b.val + l.val) % 16 * 4096 + 1 * r.val = l.val * 4096 + r.val; omega

/-- The same for y. -/
theorem py_eq (b : Fin 8) (l : Fin 16) (r : Fin 4096) :
    py m c (16 * b.val + l.val) r = pixel (m ((c : Thread nD τ).loc main_arg1)) b (pix l r) := by
  have hn := pt_lt b l
  have hb := b.isLt; have hl := l.isLt
  unfold py
  rw [dif_pos hn]
  obtain ⟨-, ⟨e0, e1, e2⟩, -⟩ := idx_in ⟨16 * b.val + l.val, hn⟩
  unfold iblk
  rw [View.read_apply]
  show V m c main_v1 (((cfg0.win 1).blk ⟨16 * b.val + l.val, hn⟩).view.emb (ix3 (0 : Fin 1) (0 : Fin 1) r)) = _
  rw [V_main_v1]
  refine flat_pixel _ _ _ b (pix l r) ?_ ?_
  · show win0_1.index ⟨16 * b.val + l.val, hn⟩ (0 : Fin 3) * 1 + 1 * 0 = b.val
    rw [e0]; show (16 * b.val + l.val) / 16 * 1 + 1 * 0 = b.val; omega
  · show win0_1.index ⟨16 * b.val + l.val, hn⟩ (2 : Fin 3) * 4096 + 1 * r.val = l.val * 4096 + r.val
    rw [e2]; show (16 * b.val + l.val) % 16 * 4096 + 1 * r.val = l.val * 4096 + r.val; omega

/-- Every tile sees the bin centres themselves. -/
theorem bn_eq (n : ℕ) (hn : n < cfg0.N) (j : Fin 256) : bn m c n j = m ((c : Thread nD τ).loc main_arg2) (ix1 j) := by
  unfold bn
  rw [dif_pos hn]
  obtain ⟨-, -, e0⟩ := idx_in ⟨n, hn⟩
  unfold iblk
  rw [View.read_apply]
  show V m c main_arg2 (((cfg0.win 2).blk ⟨n, hn⟩).view.emb (ix1 j)) = _
  rw [V_main_arg2]
  refine congrArg _ (funext fun a => Fin.ext ?_)
  match a with
  | ⟨0, _⟩ => show win0_2.index ⟨n, hn⟩ (0 : Fin 1) * 256 + 1 * j.val = j.val; rw [e0]; omega

/-- The x column sums the region writes are the column sums over all the pixels of a row. -/
theorem G3_eq (b : Fin 8) (j : Fin 256) :
    G3 m c (ix3 b (0 : Fin 1) j) = colSum (m ((c : Thread nD τ).loc main_arg0)) (m ((c : Thread nD τ).loc main_arg2)) b j := by
  unfold G3 colSum
  rw [Cert.Parzen.sum_tiles]
  refine Finset.sum_congr rfl fun l _ => ?_
  show T0 m c j (16 * b.val + l.val) = _
  unfold T0
  refine Finset.sum_congr rfl fun r _ => ?_
  rw [px_eq, bn_eq m c _ (pt_lt b l)]

theorem G4_eq (b : Fin 8) (j : Fin 256) :
    G4 m c (ix3 b (0 : Fin 1) j) = colSum (m ((c : Thread nD τ).loc main_arg1)) (m ((c : Thread nD τ).loc main_arg2)) b j := by
  unfold G4 colSum
  rw [Cert.Parzen.sum_tiles]
  refine Finset.sum_congr rfl fun l _ => ?_
  show T1 m c j (16 * b.val + l.val) = _
  unfold T1
  refine Finset.sum_congr rfl fun r _ => ?_
  rw [py_eq, bn_eq m c _ (pt_lt b l)]

theorem G5_eq (b : Fin 8) (a a' : Fin 256) :
    G5 m c (ix3 b a a') = jointSum (m ((c : Thread nD τ).loc main_arg0)) (m ((c : Thread nD τ).loc main_arg1)) (m ((c : Thread nD τ).loc main_arg2)) b a a' := by
  unfold G5 jointSum
  rw [Cert.Parzen.sum_tiles]
  refine Finset.sum_congr rfl fun l _ => ?_
  show T2 m c a a' (16 * b.val + l.val) = _
  unfold T2
  refine Finset.sum_congr rfl fun r _ => ?_
  rw [px_eq, py_eq, bn_eq m c _ (pt_lt b l), bn_eq m c _ (pt_lt b l)]

end Cert.KernelIdeal.Sums

end
-- ==== Proof.RefWeights.lean ====
/-
  The reference read at an index on the extended reals. Its Gaussian weight at (row b, pixel p, bin j) is the weight of
  pixel p of row b of the image against bin j; its column sums are the sums of these weights over the 65536 pixels of a
  row (the initial value of the sum is zero), and its joint array is, at (b, a, a'), the sum over the pixels of the
  products of the x weight at bin a and the y weight at bin a'.
-/
import proofs.«116807_j66838281060468_1_alg».proof.Proof.Gen.ReferenceIdeal.Read
import proofs.«116807_j66838281060468_1_alg».proof.Proof.ParzenLaw
import Idealize.ShloMosaic.Lib.ValueIdx

set_option maxRecDepth 16384
set_option maxHeartbeats 4000000

noncomputable section

namespace Cert.ReferenceIdeal.RefValue

open Cert.ReferenceIdeal Cert.ReferenceIdeal.Read
open Idealize.ShloMosaic Idealize.ShloMosaic.ValueIdx
open Cert.Parzen (wgt pixel colSum jointSum)

variable (x0 x1 : (⟨S8x1x256x256, .f32⟩ : BufTy).Contents (Elt Ideal)) (x2 : (⟨S256, .f32⟩ : BufTy).Contents (Elt Ideal))

/-- The flattened pixel index (b, p) names pixel p of row b. -/
theorem idx_pixel (b : Fin 8) (p : Fin 65536) :
    idx_main_v2 (ix2 b p) = ix4 b (0 : Fin 1) (⟨p.val / 256, by have := p.isLt; omega⟩ : Fin 256) (⟨p.val % 256, by omega⟩ : Fin 256) :=
  funext fun a => Fin.ext (by
    have hb := b.isLt; have hp := p.isLt
    match a with
    | ⟨0, _⟩ => show (b.val * 65536 + p.val) / 65536 = b.val; omega
    | ⟨1, _⟩ => rfl
    | ⟨2, _⟩ => show (b.val * 65536 + p.val) / 256 % 256 = p.val / 256; omega
    | ⟨3, _⟩ => show (b.val * 65536 + p.val) % 256 = p.val % 256; omega)

/-- The x weight at (row b, pixel p, bin j). -/
theorem weight_x (b : Fin 8) (p : Fin 65536) (j : Fin 256) :
    val_main_v16 (F := Ideal) x0 x2 (ix3 b p j) = wgt (pixel x0 b p) (x2 (ix1 j)) := by
  rw [val_main_v16_apply, val_main_v15_apply, val_main_v14_apply, val_main_cst_2_apply, val_main_v13_apply, val_main_v12_apply,
    val_main_v11_apply, val_main_cst_1_apply, val_main_v10_apply, val_main_v9_apply, val_main_v7_apply, val_main_v8_apply,
    val_main_v6_apply, val_main_v2_apply, val_main_v1_apply, val_main_v0_apply, val_main_cst_apply]
  have e1 : idx_main_v2 (idx_main_v6 (idx_main_v8 (ix3 b p j))) = idx_main_v2 (ix2 b p) :=
    congrArg idx_main_v2 (funext fun a => Fin.ext (by match a with | ⟨0, _⟩ => rfl | ⟨1, _⟩ => rfl))
  have e2 : idx_main_v7 (idx_main_v9 (ix3 b p j)) = ix1 j := funext fun a => Fin.ext (by match a with | ⟨0, _⟩ => rfl)
  rw [e1, e2, idx_pixel]
  exact Cert.Parzen.wgt_ref (pixel x0 b p) (x2 (ix1 j))

/-- The y weight at (row b, pixel p, bin j). -/
theorem weight_y (b : Fin 8) (p : Fin 65536) (j : Fin 256) :
    val_main_v36 (F := Ideal) x1 x2 (ix3 b p j) = wgt (pixel x1 b p) (x2 (ix1 j)) := by
  rw [val_main_v36_apply, val_main_v35_apply, val_main_v34_apply, val_main_cst_8_apply, val_main_v33_apply, val_main_v32_apply,
    val_main_v31_apply, val_main_cst_7_apply, val_main_v30_apply, val_main_v29_apply, val_main_v27_apply, val_main_v28_apply,
    val_main_v26_apply, val_main_v5_apply, val_main_v4_apply, val_main_v3_apply, val_main_cst_0_apply]
  have e1 : idx_main_v5 (idx_main_v26 (idx_main_v28 (ix3 b p j))) = idx_main_v2 (ix2 b p) :=
    funext fun a => Fin.ext (by match a with | ⟨0, _⟩ => rfl | ⟨1, _⟩ => rfl | ⟨2, _⟩ => rfl | ⟨3, _⟩ => rfl)
  have e2 : idx_main_v27 (idx_main_v29 (ix3 b p j)) = ix1 j := funext fun a => Fin.ext (by match a with | ⟨0, _⟩ => rfl)
  rw [e1, e2, idx_pixel]
  exact Cert.Parzen.wgt_ref (pixel x1 b p) (x2 (ix1 j))

/-- The x column sums. -/
theorem colsum_x (b : Fin 8) (j : Fin 256) : val_main_v17 (F := Ideal) x0 x2 (ix2 b j) = colSum x0 x2 b j := by
  rw [val_main_v17_apply, val_main_cst_3_apply]
  show Ideal.ofBits .f32 0x00000000#32 + _ = _
  rw [Cert.Parzen.ofBits_zero, zero_add]
  unfold colSum
  refine Finset.sum_congr rfl fun p _ => ?_
  have e : idx_main_v17 (ix2 b j) p = ix3 b p j := funext fun a => Fin.ext (by match a with | ⟨0, _⟩ => rfl | ⟨1, _⟩ => rfl | ⟨2, _⟩ => rfl)
  rw [e, weight_x]

/-- The y column sums. -/
theorem colsum_y (b : Fin 8) (j : Fin 256) : val_main_v37 (F := Ideal) x1 x2 (ix2 b j) = colSum x1 x2 b j := by
  rw [val_main_v37_apply, val_main_cst_9_apply]
  show Ideal.ofBits .f32 0x00000000#32 + _ = _
  rw [Cert.Parzen.ofBits_zero, zero_add]
  unfold colSum
  refine Finset.sum_congr rfl fun p _ => ?_
  have e : idx_main_v37 (ix2 b j) p = ix3 b p j := funext fun a => Fin.ext (by match a with | ⟨0, _⟩ => rfl | ⟨1, _⟩ => rfl | ⟨2, _⟩ => rfl)
  rw [e, weight_y]

/-- The joint array. -/
theorem joint_xy (b : Fin 8) (a a' : Fin 256) : val_main_v46 (F := Ideal) x0 x1 x2 (ix3 b a a') = jointSum x0 x1 x2 b a a' := by
  rw [val_main_v46_apply]
  unfold jointSum
  refine Finset.sum_congr rfl fun p _ => ?_
  have el : lidx_main_v46 (ix3 b a a') p = ix3 b p a := funext fun d => Fin.ext (by match d with | ⟨0, _⟩ => rfl | ⟨1, _⟩ => rfl | ⟨2, _⟩ => rfl)
  have er : ridx_main_v46 (ix3 b a a') p = ix3 b p a' := funext fun d => Fin.ext (by match d with | ⟨0, _⟩ => rfl | ⟨1, _⟩ => rfl | ⟨2, _⟩ => rfl)
  rw [el, er, weight_x, weight_y]

end Cert.ReferenceIdeal.RefValue

end
-- ==== Proof.IdealResult.lean ====
/-
  The result of the idealized kernel is the reference's. After the region, the later lines of @main see three arrays:
  the x and y column sums over the pixels of each row, re-shaped from [8,1,256] to [8,256], and the [8,256,256] joint
  array. These are, index by index, the reference's two column-sum arrays and its joint array. From there on the two
  programs apply the same operations in the same order (the division by the number of pixels, the normalisations by
  the sums plus ε, the three entropies in base 2 and the normalised mutual information), so their results are the same
  extended reals.
-/
import proofs.«116807_j66838281060468_1_alg».proof.Proof.IdealBlocks
import proofs.«116807_j66838281060468_1_alg».proof.Proof.RefWeights

set_option maxRecDepth 16384
set_option maxHeartbeats 40000000

noncomputable section

namespace Cert.KernelIdeal.Result

open Cert.KernelIdeal Cert.KernelIdeal.Gen Cert.KernelIdeal.Region Cert.KernelIdeal.Arrays Cert.KernelIdeal.Sums
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The x column sums, re-shaped to [8,256], are the reference's. -/
theorem sx_eq (h : S8x1x256.ShapeCasts S8x256) :
    shapeCast S8x256 (G3 m c) h
      = Cert.ReferenceIdeal.Read.val_main_v17 (F := Ideal) (m ((c : Thread nD τ).loc main_arg0)) (m ((c : Thread nD τ).loc main_arg2)) := by
  funext i
  obtain ⟨b, j, rfl⟩ : ∃ (b : Fin 8) (j : Fin 256), i = ix2 b j := ⟨i 0, i 1, eq_ix2 i⟩
  rw [shapeCast_apply _ _ (ix2 b j) (ix3 b (0 : Fin 1) j) (by
    rw [Shape.rowMajor_val_three, Shape.rowMajor_val_two]; show (b.val * 1 + 0) * 256 + j.val = b.val * 256 + j.val; omega)]
  rw [G3_eq]
  exact (Cert.ReferenceIdeal.RefValue.colsum_x _ _ b j).symm

/-- The y column sums, re-shaped to [8,256], are the reference's. -/
theorem sy_eq (h : S8x1x256.ShapeCasts S8x256) :
    shapeCast S8x256 (G4 m c) h
      = Cert.ReferenceIdeal.Read.val_main_v37 (F := Ideal) (m ((c : Thread nD τ).loc main_arg1)) (m ((c : Thread nD τ).loc main_arg2)) := by
  funext i
  obtain ⟨b, j, rfl⟩ : ∃ (b : Fin 8) (j : Fin 256), i = ix2 b j := ⟨i 0, i 1, eq_ix2 i⟩
  rw [shapeCast_apply _ _ (ix2 b j) (ix3 b (0 : Fin 1) j) (by
    rw [Shape.rowMajor_val_three, Shape.rowMajor_val_two]; show (b.val * 1 + 0) * 256 + j.val = b.val * 256 + j.val; omega)]
  rw [G4_eq]
  exact (Cert.ReferenceIdeal.RefValue.colsum_y _ _ b j).symm

/-- The joint array is the reference's. -/
theorem joint_eq :
    G5 m c = Cert.ReferenceIdeal.Read.val_main_v46 (F := Ideal) (m ((c : Thread nD τ).loc main_arg0)) (m ((c : Thread nD τ).loc main_arg1)) (m ((c : Thread nD τ).loc main_arg2)) := by
  funext i
  obtain ⟨b, a, a', rfl⟩ : ∃ (b : Fin 8) (a a' : Fin 256), i = ix3 b a a' := ⟨i 0, i 1, i 2, eq_ix3 i⟩
  rw [G5_eq]
  exact (Cert.ReferenceIdeal.RefValue.joint_xy _ _ _ b a a').symm

/-- What the later lines leave in the result buffer is the reference's result. -/
theorem result_eq :
    Pipeline.afterTail₀ cfgs (dats m) 0 (V0 m) [hostOps1] c main_v60
      = Cert.ReferenceIdeal.Read.val_main_v86 (F := Ideal) (m ((c : Thread nD τ).loc main_arg0)) (m ((c : Thread nD τ).loc main_arg1)) (m ((c : Thread nD τ).loc main_arg2)) := by
  have w3 : Pipeline.withArrays (cfgs 0).spec c (V0 m c) (fun w => (dats m 0 c).arrAt w (cfgs 0).N) (Proc.devRef .tc main_v2_0) = G3 m c :=
    (Pipeline.withArrays_arr spec0 launch0.win.arr_inj c _ _ 3).trans (final3 m c)
  have w4 : Pipeline.withArrays (cfgs 0).spec c (V0 m c) (fun w => (dats m 0 c).arrAt w (cfgs 0).N) (Proc.devRef .tc main_v2_1) = G4 m c :=
    (Pipeline.withArrays_arr spec0 launch0.win.arr_inj c _ _ 4).trans (final4 m c)
  have w5 : Pipeline.withArrays (cfgs 0).spec c (V0 m c) (fun w => (dats m 0 c).arrAt w (cfgs 0).N) (Proc.devRef .tc main_v2_2) = G5 m c :=
    (Pipeline.withArrays_arr spec0 launch0.win.arr_inj c _ _ 5).trans (final5 m c)
  have s3 : (fun i => shapeCast main_v3.ty.shape (G3 m c) shapeCasts_S8x1x256_S8x256 i)
      = Cert.ReferenceIdeal.Read.val_main_v17 (F := Ideal) (m ((c : Thread nD τ).loc main_arg0)) (m ((c : Thread nD τ).loc main_arg2)) :=
    sx_eq m c _
  have s4 : (fun i => shapeCast main_v4.ty.shape (G4 m c) shapeCasts_S8x1x256_S8x256 i)
      = Cert.ReferenceIdeal.Read.val_main_v37 (F := Ideal) (m ((c : Thread nD τ).loc main_arg1)) (m ((c : Thread nD τ).loc main_arg2)) :=
    sy_eq m c _
  unfold Pipeline.afterTail₀
  simp only [List.flatten_cons, List.flatten_nil, List.append_nil]
  unfold hostOps1
  after_results_simp
  rw [w3, w4, w5, s3, s4, joint_eq m c]
  rfl

end Cert.KernelIdeal.Result

end
-- ==== Proof.lean ====
/-
  A Parzen-window mutual information: a kernel that sweeps each of 8 image rows in 16 tiles of 4096 pixels, keeping in
  three accumulators the column sums of the Gaussian weights of x and of y against 256 bin centres and their joint
  products, against a reference that forms all the weights at once, sums over the 65536 pixels of a row and contracts
  them in one product. On the extended reals the two compute the same three arrays: each Gaussian weight is the same
  number (the kernel multiplies by the reciprocal of σ, read at its exact value, where the reference divides by σ, and
  groups the three factors of the exponent differently; both are identities for every extended real), and a sum over a
  row is the sum over its tiles of the tiles' sums. After these arrays both programs apply the same host operations.
  The frames: each program runs to the end and leaves its three argument arrays as launched.
-/
import proofs.«116807_j66838281060468_1_alg».proof.Defs
import proofs.«116807_j66838281060468_1_alg».proof.Proof.Gen.Kernel
import proofs.«116807_j66838281060468_1_alg».proof.Proof.Gen.KernelIdeal
import proofs.«116807_j66838281060468_1_alg».proof.Proof.Gen.ReferenceIdeal
import proofs.«116807_j66838281060468_1_alg».proof.Proof.Gen.Pre_finite_inputs
import proofs.«116807_j66838281060468_1_alg».proof.Proof.Gen.ReferenceIdeal.Run
import proofs.«116807_j66838281060468_1_alg».proof.Proof.Gen.ReferenceIdeal.Read
import proofs.«116807_j66838281060468_1_alg».proof.Proof.BitsFrame
import proofs.«116807_j66838281060468_1_alg».proof.Proof.IdealFrame
import proofs.«116807_j66838281060468_1_alg».proof.Proof.IdealResult
import Idealize.ShloMosaic.Adequacy
import Idealize.ShloMosaic.Init

set_option maxHeartbeats 4000000

noncomputable section

namespace Cert.Proof

open Idealize.ShloMosaic Idealize.ShloMosaic.TcCoe Idealize.SL.Sem

/-- The kernel as printed runs to the end and keeps its arguments. -/
theorem frame_k : Cert.frame_Kernel := fun m ρ _ => Cert.Kernel.Region.frame m ρ

/-- So does its idealization. -/
theorem frame_ki : Cert.frame_KernelIdeal := fun m ρ _ => Cert.KernelIdeal.Region.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two constants the ideal pass named: the word of 10.0 read as the reciprocal of σ, 2^27 / 13421773. -/
theorem preserves : Cert.preserves_Kernel_KernelIdeal :=
  ⟨IdealRules.named_const.statement Cert.KernelIdeal.κ "inv_sigma" .f32 0x41200000#32 ((134217728 / 13421773 : ℝ) : EReal) rfl,
   IdealRules.named_const.statement Cert.KernelIdeal.κ "inv_sigma" .f32 0x41200000#32 ((134217728 / 13421773 : ℝ) : EReal) rfl⟩

/-- From memories agreeing on the arguments both idealized programs end with the same result. -/
theorem algebraic : Cert.algebraic_KernelIdeal_ReferenceIdeal := by
  intro m ρ m' ρ' _ hagree
  refine ⟨fun c => Cert.ReferenceIdeal.Read.val_main_v86 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Region.run_main m ρ)
    · exact ((h c).2 Cert.KernelIdeal.main_v60 (Pipeline.mem_restRefs_of Cert.KernelIdeal.main_v60 (by decide) (by decide))).trans
        (Cert.KernelIdeal.Result.result_eq m c)
    · exact ((h c).2 Cert.KernelIdeal.main_arg0 (Pipeline.mem_restRefs_of Cert.KernelIdeal.main_arg0 (by decide) (by decide))).trans
        (Cert.KernelIdeal.Region.W_main_arg0 m (Cert.KernelIdeal.Region.dats m) c)
    · exact ((h c).2 Cert.KernelIdeal.main_arg1 (Pipeline.mem_restRefs_of Cert.KernelIdeal.main_arg1 (by decide) (by decide))).trans
        (Cert.KernelIdeal.Region.W_main_arg1 m (Cert.KernelIdeal.Region.dats m) c)
    · exact ((h c).1 2).trans (((Cert.KernelIdeal.Region.dats m 0 c).arrAt_in 2 rfl _).trans
        ((Cert.KernelIdeal.Region.A_eq m c 2).trans (Cert.KernelIdeal.Region.V_main_arg2 m c)))
  · refine (θ_run Cert.ReferenceIdeal.defs _ _).mono (fun _ h c => ⟨?_, (h c).2⟩)
      (Cert.ReferenceIdeal.Value.run (F := Ideal) m' ρ')
    rw [(h c).1, Cert.ReferenceIdeal.Read.val_main_v86_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
